-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128 : Shape := ⟨2, ![8, 128]⟩
abbrev S32x32x32x3 : Shape := ⟨4, ![32, 32, 32, 3]⟩
abbrev S48x48x48x3 : Shape := ⟨4, ![48, 48, 48, 3]⟩
abbrev S128x3 : Shape := ⟨2, ![128, 3]⟩
abbrev S128 : Shape := ⟨1, ![128]⟩
abbrev S256x128 : Shape := ⟨2, ![256, 128]⟩
abbrev S256 : Shape := ⟨1, ![256]⟩
abbrev S128x128 : Shape := ⟨2, ![128, 128]⟩
abbrev S4x128 : Shape := ⟨2, ![4, 128]⟩
abbrev S4 : Shape := ⟨1, ![4]⟩
abbrev S8 : Shape := ⟨1, ![8]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel
  bcast_S_S32x32x32x3 : S_.BroadcastsInDim S32x32x32x3 (![] : Fin 0 → Fin S32x32x32x3.rank)
  reducesTo_S32x32x32x3_S_d0_1_2_3 : S32x32x32x3.ReducesTo [0, 1, 2, 3] S_
  bcast_S_S48x48x48x3 : S_.BroadcastsInDim S48x48x48x3 (![] : Fin 0 → Fin S48x48x48x3.rank)
  reducesTo_S48x48x48x3_S_d0_1_2_3 : S48x48x48x3.ReducesTo [0, 1, 2, 3] S_
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S8 : S_.BroadcastsInDim S8 (![] : Fin 0 → Fin S8.rank)
  reducesTo_S8_S_d0 : S8.ReducesTo [0] S_

variable [Facts]

def fn_part4 {F : FTy → Type} [FloatOps F] (main_arg14 : FVec F S8 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg11 : FVec F S4x128 .f32) (main_arg12 : FVec F S4 .f32) (main_arg13 : FVec F S8x128 .f32) (main_arg14 : FVec F S8 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S4x128 .f32 := Host.absf main_arg11
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S8x128 .f32 := Host.absf main_arg13
  let main_cst_24 : FVec F S_ .f32 := constant S_ .f32 0x7F800000#32
  let main_v65 : FVec F S8x128 .f32 := broadcastInDim S8x128 ![] bcast_S_S8x128 main_cst_24
  let main_v66 : IVec S8x128 1 := cmpf .olt main_v64 main_v65
  let main_c_25 : IVec S_ 1 := constantI S_ 1 1#1
  let main_v67 : IVec S_ 1 := (fun x v => Host.reduce IntOp.andi x v reducesTo_S8x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S256x128 .f32) (main_arg10 : FVec F S256 .f32) (main_arg11 : FVec F S4x128 .f32) (main_arg12 : FVec F S4 .f32) (main_arg13 : FVec F S8x128 .f32) (main_arg14 : FVec F S8 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S128 .f32) (main_arg5 : FVec F S256x128 .f32) (main_arg6 : FVec F S256 .f32) (main_arg7 : FVec F S128x128 .f32) (main_arg8 : FVec F S128 .f32) (main_arg9 : FVec F S256x128 .f32) (main_arg10 : FVec F S256 .f32) (main_arg11 : FVec F S4x128 .f32) (main_arg12 : FVec F S4 .f32) (main_arg13 : FVec F S8x128 .f32) (main_arg14 : FVec F S8 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8x128 .f32) (main_arg1 : FVec F S32x32x32x3 .f32) (main_arg2 : FVec F S48x48x48x3 .f32) (main_arg3 : FVec F S128x3 .f32) (main_arg4 : FVec F S128 .f32) (main_arg5 : FVec F S256x128 .f32) (main_arg6 : FVec F S256 .f32) (main_arg7 : FVec F S128x128 .f32) (main_arg8 : FVec F S128 .f32) (main_arg9 : FVec F S256x128 .f32) (main_arg10 : FVec F S256 .f32) (main_arg11 : FVec F S4x128 .f32) (main_arg12 : FVec F S4 .f32) (main_arg13 : FVec F S8x128 .f32) (main_arg14 : FVec F S8 .f32) : IVec S_ 1 :=
  let main_v0 : FVec F S8x128 .f32 := Host.absf main_arg0
  let main_cst : FVec F S_ .f32 := constant S_ .f32 0x7F800000#32
  let main_v1 : FVec F S8x128 .f32 := broadcastInDim S8x128 ![] bcast_S_S8x128 main_cst
  let main_v2 : IVec S8x128 1 := cmpf .olt main_v0 main_v1
  let main_c : IVec S_ 1 := constantI S_ 1 1#1
  let main_v3 : IVec S_ 1 := (fun x v => Host.reduce IntOp.andi x v reducesTo_S8x128_S_d0_1 h_S_) main_v2 main_c
  let main_v4 : FVec F S32x32x32x3 .f32 := Host.absf main_arg1
  let main_cst_0 : FVec F S_ .f32 := constant S_ .f32 0x7F800000#32
  let main_v5 : FVec F S32x32x32x3 .f32 := broadcastInDim S32x32x32x3 ![] bcast_S_S32x32x32x3 main_cst_0
  let main_v6 : IVec S32x32x32x3 1 := cmpf .olt main_v4 main_v5
  let main_c_1 : IVec S_ 1 := constantI S_ 1 1#1
  let main_v7 : IVec S_ 1 := (fun x v => Host.reduce IntOp.andi x v reducesTo_S32x32x32x3_S_d0_1_2_3 h_S_) main_v6 main_c_1
  let main_v8 : IVec S_ 1 := andi main_v3 main_v7
  let main_v9 : FVec F S48x48x48x3 .f32 := Host.absf main_arg2
  let main_cst_2 : FVec F S_ .f32 := constant S_ .f32 0x7F800000#32
  let main_v10 : FVec F S48x48x48x3 .f32 := broadcastInDim S48x48x48x3 ![] bcast_S_S48x48x48x3 main_cst_2
  let main_v11 : IVec S48x48x48x3 1 := cmpf .olt main_v9 main_v10
  let main_c_3 : IVec S_ 1 := constantI S_ 1 1#1
  let main_v12 : IVec S_ 1 := (fun x v => Host.reduce IntOp.andi x v reducesTo_S48x48x48x3_S_d0_1_2_3 h_S_) main_v11 main_c_3
  let main_v13 : IVec S_ 1 := andi main_v8 main_v12
  let main_v14 : FVec F S128x3 .f32 := Host.absf main_arg3
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8x128 : Shape := ⟨2, ![8, 128]⟩
abbrev S32x32x32x3 : Shape := ⟨4, ![32, 32, 32, 3]⟩
abbrev S48x48x48x3 : Shape := ⟨4, ![48, 48, 48, 3]⟩
abbrev S128x3 : Shape := ⟨2, ![128, 3]⟩
abbrev S128 : Shape := ⟨1, ![128]⟩
abbrev S256x128 : Shape := ⟨2, ![256, 128]⟩
abbrev S256 : Shape := ⟨1, ![256]⟩
abbrev S128x128 : Shape := ⟨2, ![128, 128]⟩
abbrev S4x128 : Shape := ⟨2, ![4, 128]⟩
abbrev S4 : Shape := ⟨1, ![4]⟩
abbrev S8 : Shape := ⟨1, ![8]⟩
abbrev S128x256 : Shape := ⟨2, ![128, 256]⟩
abbrev S8x256 : Shape := ⟨2, ![8, 256]⟩
abbrev S1x256 : Shape := ⟨2, ![1, 256]⟩
abbrev S128x8 : Shape := ⟨2, ![128, 8]⟩
abbrev S8x8 : Shape := ⟨2, ![8, 8]⟩
abbrev S1x8 : Shape := ⟨2, ![1, 8]⟩
abbrev S8x4 : Shape := ⟨2, ![8, 4]⟩
abbrev S3x128 : Shape := ⟨2, ![3, 128]⟩
abbrev S128x4 : Shape := ⟨2, ![128, 4]⟩
abbrev S32768x3 : Shape := ⟨2, ![32768, 3]⟩
abbrev S110592x3 : Shape := ⟨2, ![110592, 3]⟩
abbrev S143360x3 : Shape := ⟨2, ![143360, 3]⟩
abbrev S8x573440 : Shape := ⟨2, ![8, 573440]⟩
abbrev S1024x3 : Shape := ⟨2, ![1024, 3]⟩
abbrev S8x4096 : Shape := ⟨2, ![8, 4096]⟩
abbrev S1024x128 : Shape := ⟨2, ![1024, 128]⟩
abbrev S1x128 : Shape := ⟨2, ![1, 128]⟩
abbrev S1x1024x128 : Shape := ⟨3, ![1, 1024, 128]⟩
abbrev S8x1x128 : Shape := ⟨3, ![8, 1, 128]⟩
abbrev S8x1024x128 : Shape := ⟨3, ![8, 1024, 128]⟩
abbrev S8192x128 : Shape := ⟨2, ![8192, 128]⟩
abbrev S8192x4 : Shape := ⟨2, ![8192, 4]⟩
abbrev S1x4 : Shape := ⟨2, ![1, 4]⟩
abbrev S8x1024x4 : Shape := ⟨3, ![8, 1024, 4]⟩
abbrev S8x1x4 : Shape := ⟨3, ![8, 1, 4]⟩

abbrev nBuf : Space → Nat
  | .hbm => 43
  | .vmem => 16
  | .smem => 0
  | _ => 0

abbrev bufTy : (tb : Table) → Fin (tcTables nBuf tb) → BufTy
  | .hbm, ⟨0, _⟩ => ⟨S8x128, .f32⟩
  | .hbm, ⟨1, _⟩ => ⟨S32x32x32x3, .f32⟩
  | .hbm, ⟨2, _⟩ => ⟨S48x48x48x3, .f32⟩
  | .hbm, ⟨3, _⟩ => ⟨S128x3, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S256, .f32⟩
  | .hbm, ⟨11, _⟩ => ⟨S4x128, .f32⟩
  | .hbm, ⟨12, _⟩ => ⟨S4, .f32⟩
  | .hbm, ⟨13, _⟩ => ⟨S8x128, .f32⟩
  | .hbm, ⟨14, _⟩ => ⟨S8, .f32⟩
  | .hbm, ⟨15, _⟩ => ⟨S128x256, .f32⟩
  | .hbm, ⟨16, _⟩ => ⟨S8x256, .f32⟩
  | .hbm, ⟨17, _⟩ => ⟨S1x256, .f32⟩
  | .hbm, ⟨18, _⟩ => ⟨S8x256, .f32⟩
  | .hbm, ⟨19, _⟩ => ⟨S8x256, .f32⟩
  | .hbm, ⟨20, _⟩ => ⟨S8x128, .f32⟩
  | .hbm, ⟨21, _⟩ => ⟨S8x128, .f32⟩
  | .hbm, ⟨22, _⟩ => ⟨S128x256, .f32⟩
  | .hbm, ⟨23, _⟩ => ⟨S8x256, .f32⟩
  | .hbm, ⟨24, _⟩ => ⟨S1x256, .f32⟩
  | .hbm, ⟨25, _⟩ => ⟨S8x256, .f32⟩
  | .hbm, ⟨26, _⟩ => ⟨S8x256, .f32⟩
  | .hbm, ⟨27, _⟩ => ⟨S8x128, .f32⟩
  | .hbm, ⟨28, _⟩ => ⟨S8x128, .f32⟩
  | .hbm, ⟨29, _⟩ => ⟨S128x8, .f32⟩
  | .hbm, ⟨30, _⟩ => ⟨S8x8, .f32⟩
  | .hbm, ⟨31, _⟩ => ⟨S1x8, .f32⟩
  | .hbm, ⟨32, _⟩ => ⟨S8x8, .f32⟩
  | .hbm, ⟨33, _⟩ => ⟨S8x8, .f32⟩
  | .hbm, ⟨34, _⟩ => ⟨S8x4, .f32⟩
  | .hbm, ⟨35, _⟩ => ⟨S8x4, .f32⟩
  | .hbm, ⟨36, _⟩ => ⟨S3x128, .f32⟩
  | .hbm, ⟨37, _⟩ => ⟨S128x128, .f32⟩
  | .hbm, ⟨38, _⟩ => ⟨S128x4, .f32⟩
  | .hbm, ⟨39, _⟩ => ⟨S32768x3, .f32⟩
  | .hbm, ⟨40, _⟩ => ⟨S110592x3, .f32⟩
  | .hbm, ⟨41, _⟩ => ⟨S143360x3, .f32⟩
  | .hbm, ⟨42, _⟩ => ⟨S8x573440, .f32⟩
  | .local _ .vmem, ⟨0, _⟩ => ⟨S1024x3, .f32⟩
  | .local _ .vmem, ⟨1, _⟩ => ⟨S1024x3, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x4, .f32⟩
  | .local _ .vmem, ⟨7, _⟩ => ⟨S8x4, .f32⟩
  | .local _ .vmem, ⟨8, _⟩ => ⟨S3x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x4, .f32⟩
  | .local _ .vmem, ⟨13, _⟩ => ⟨S4, .f32⟩
  | .local _ .vmem, ⟨14, _⟩ => ⟨S8x4096, .f32⟩
  | .local _ .vmem, ⟨15, _⟩ => ⟨S8x4096, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![140], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S256x128_S128x256_1_0 : S256x128.Transposes [1, 0] S128x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  slices_S8x256_S8x128_0_0 : S8x256.Slices ![0, 0] S8x128
  slices_S8x256_S8x128_0_128 : S8x256.Slices ![0, 128] S8x128
  transposes_S8x128_S128x8_1_0 : S8x128.Transposes [1, 0] S128x8
  bcast_S8_S1x8_1 : S8.BroadcastsInDim S1x8 (![1] : Fin 1 → Fin S1x8.rank)
  bcast_S1x8_S8x8_0_1 : S1x8.BroadcastsInDim S8x8 (![0, 1] : Fin 2 → Fin S8x8.rank)
  slices_S8x8_S8x4_0_0 : S8x8.Slices ![0, 0] S8x4
  slices_S8x8_S8x4_0_4 : S8x8.Slices ![0, 4] S8x4
  transposes_S128x3_S3x128_1_0 : S128x3.Transposes [1, 0] S3x128
  transposes_S128x128_S128x128_1_0 : S128x128.Transposes [1, 0] S128x128
  transposes_S4x128_S128x4_1_0 : S4x128.Transposes [1, 0] S128x4
  shapeCasts_S32x32x32x3_S32768x3 : S32x32x32x3.ShapeCasts S32768x3
  shapeCasts_S48x48x48x3_S110592x3 : S48x48x48x3.ShapeCasts S110592x3
  concatenates_S32768x3_S110592x3_S143360x3_d0 : Shape.Concatenates [S32768x3, S110592x3] S143360x3 0
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S1024x128_S1x1024x128 : S1024x128.ShapeCasts S1x1024x128
  shapeCasts_S8x128_S8x1x128 : S8x128.ShapeCasts S8x1x128
  broadcasts_S1x1024x128_S8x1024x128 : S1x1024x128.Broadcasts S8x1024x128
  broadcasts_S8x1x128_S8x1024x128 : S8x1x128.Broadcasts S8x1024x128
  shapeCasts_S8x1024x128_S8192x128 : S8x1024x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S8192x128 : S1x128.Broadcasts S8192x128
  shapeCasts_S8192x128_S8x1024x128 : S8192x128.ShapeCasts S8x1024x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4_S4_0 : ∀ a, (![0] : Fin 1 → Nat) a + S4.size a ≤ S4.size a
  h_S4 : 0 < S4.numel
  shapeCasts_S4_S1x4 : S4.ShapeCasts S1x4
  broadcasts_S1x4_S8192x4 : S1x4.Broadcasts S8192x4
  shapeCasts_S8192x4_S8x1024x4 : S8192x4.ShapeCasts S8x1024x4
  inb_S8x4_S8x4_0_0 : ∀ a, (![0, 0] : Fin 2 → Nat) a + S8x4.size a ≤ S8x4.size a
  h_S8x4 : 0 < S8x4.numel
  shapeCasts_S8x4_S8x4 : S8x4.ShapeCasts S8x4
  shapeCasts_S8x4_S8x1x4 : S8x4.ShapeCasts S8x1x4
  broadcasts_S8x1x4_S8x1024x4 : S8x1x4.Broadcasts S8x1024x4
  shapeCasts_S8x1024x4_S8x4096 : S8x1024x4.ShapeCasts S8x4096
  inb_S8x4096_S8x4096_0_0 : ∀ a, (![0, 0] : Fin 2 → Nat) a + S8x4096.size a ≤ S8x4096.size a
  h_S8x4096 : 0 < S8x4096.numel
  dot_S8x128_S128x256_S8x256_1_0_0_1_n_n_wf : DotDims.WF S8x128 S128x256 S8x256 [1] [0] [0] [1] [] []
  dot_S8x128_S128x8_S8x8_1_0_0_1_n_n_wf : DotDims.WF S8x128 S128x8 S8x8 [1] [0] [0] [1] [] []
  dot_S1024x3_S3x128_S1024x128_1_0_0_1_n_n_wf : DotDims.WF S1024x3 S3x128 S1024x128 [1] [0] [0] [1] [] []
  dot_S8192x128_S128x128_S8192x128_1_0_0_1_n_n_wf : DotDims.WF S8192x128 S128x128 S8192x128 [1] [0] [0] [1] [] []
  dot_S8192x128_S128x4_S8192x4_1_0_0_1_n_n_wf : DotDims.WF S8192x128 S128x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S143360x3.size a
  hwx0_0 : ∀ i : grid0.Coords, EltTy.bits .f32 = 32 ∨ (Rect.block (s := S143360x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x4.size a ≤ S8x4.size a
  hwx0_5 : ∀ i : grid0.Coords, EltTy.bits .f32 = 32 ∨ (Rect.block (s := S8x4) S8x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x4.size a ≤ S8x4.size a
  hwx0_6 : ∀ i : grid0.Coords, EltTy.bits .f32 = 32 ∨ (Rect.block (s := S8x4) S8x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128.size a ≤ S3x128.size a
  hwx0_7 : ∀ i : grid0.Coords, EltTy.bits .f32 = 32 ∨ (Rect.block (s := S3x128) S3x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x4.size a ≤ S128x4.size a
  hwx0_11 : ∀ i : grid0.Coords, EltTy.bits .f32 = 32 ∨ (Rect.block (s := S128x4) S128x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4.size a ≤ S4.size a
  hwx0_12 : ∀ i : grid0.Coords, EltTy.bits .f32 = 32 ∨ (Rect.block (s := S4) S4.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x4096.size a ≤ S8x573440.size a
  hwx0_13 : ∀ i : grid0.Coords, EltTy.bits .f32 = 32 ∨ (Rect.block (s := S8x573440) S8x4096.size (cc0_transform_13 i) (hinb0_13 i)).WholeWords (EltTy.packing .f32)

variable [Facts₀]

def dot_S8x128_S128x256_S8x256_1_0_0_1_n_n : DotDims S8x128 S128x256 S8x256 where
  lhsContracting := [1]
  rhsContracting := [0]
  lhsNonContracting := [0]
  rhsNonContracting := [1]
  lhsBatch := []
  rhsBatch := []
  wf := dot_S8x128_S128x256_S8x256_1_0_0_1_n_n_wf
def dot_S8x128_S128x8_S8x8_1_0_0_1_n_n : DotDims S8x128 S128x8 S8x8 where
  lhsContracting := [1]
  rhsContracting := [0]
  lhsNonContracting := [0]
  rhsNonContracting := [1]
  lhsBatch := []
  rhsBatch := []
  wf := dot_S8x128_S128x8_S8x8_1_0_0_1_n_n_wf
def dot_S1024x3_S3x128_S1024x128_1_0_0_1_n_n : DotDims S1024x3 S3x128 S1024x128 where
  lhsContracting := [1]
  rhsContracting := [0]
  lhsNonContracting := [0]
  rhsNonContracting := [1]
  lhsBatch := []
  rhsBatch := []
  wf := dot_S1024x3_S3x128_S1024x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x4_S8192x4_1_0_0_1_n_n : DotDims S8192x128 S128x4 S8192x4 where
  lhsContracting := [1]
  rhsContracting := [0]
  lhsNonContracting := [0]
  rhsNonContracting := [1]
  lhsBatch := []
  rhsBatch := []
  wf := dot_S8192x128_S128x4_S8192x4_1_0_0_1_n_n_wf

abbrev win0_0 : Pipeline.Window sig grid0 :=
  Pipeline.Window.ofSpec (Memref.whole main_v26) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S8x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S8x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S3x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S128x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27) S8x4096.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8x128 : Shape := ⟨2, ![8, 128]⟩
abbrev S32x32x32x3 : Shape := ⟨4, ![32, 32, 32, 3]⟩
abbrev S48x48x48x3 : Shape := ⟨4, ![48, 48, 48, 3]⟩
abbrev S128x3 : Shape := ⟨2, ![128, 3]⟩
abbrev S128 : Shape := ⟨1, ![128]⟩
abbrev S256x128 : Shape := ⟨2, ![256, 128]⟩
abbrev S256 : Shape := ⟨1, ![256]⟩
abbrev S128x128 : Shape := ⟨2, ![128, 128]⟩
abbrev S4x128 : Shape := ⟨2, ![4, 128]⟩
abbrev S4 : Shape := ⟨1, ![4]⟩
abbrev S8 : Shape := ⟨1, ![8]⟩
abbrev S1x32768x3 : Shape := ⟨3, ![1, 32768, 3]⟩
abbrev S8x32768x3 : Shape := ⟨3, ![8, 32768, 3]⟩
abbrev S128x256 : Shape := ⟨2, ![128, 256]⟩
abbrev S8x256 : Shape := ⟨2, ![8, 256]⟩
abbrev S1x256 : Shape := ⟨2, ![1, 256]⟩
abbrev S8x32768x128 : Shape := ⟨3, ![8, 32768, 128]⟩
abbrev S1x1x128 : Shape := ⟨3, ![1, 1, 128]⟩
abbrev S8x1x128 : Shape := ⟨3, ![8, 1, 128]⟩
abbrev S_ : Shape := ⟨0, ![]⟩
abbrev S128x8 : Shape := ⟨2, ![128, 8]⟩
abbrev S8x8 : Shape := ⟨2, ![8, 8]⟩
abbrev S1x8 : Shape := ⟨2, ![1, 8]⟩
abbrev S8x4 : Shape := ⟨2, ![8, 4]⟩
abbrev S8x32768x4 : Shape := ⟨3, ![8, 32768, 4]⟩
abbrev S1x1x4 : Shape := ⟨3, ![1, 1, 4]⟩
abbrev S8x1x4 : Shape := ⟨3, ![8, 1, 4]⟩
abbrev S8x131072 : Shape := ⟨2, ![8, 131072]⟩
abbrev S1x110592x3 : Shape := ⟨3, ![1, 110592, 3]⟩
abbrev S8x110592x3 : Shape := ⟨3, ![8, 110592, 3]⟩
abbrev S8x110592x128 : Shape := ⟨3, ![8, 110592, 128]⟩
abbrev S8x110592x4 : Shape := ⟨3, ![8, 110592, 4]⟩
abbrev S8x442368 : Shape := ⟨2, ![8, 442368]⟩
abbrev S8x573440 : Shape := ⟨2, ![8, 573440]⟩

abbrev nBuf : Space → Nat
  | .hbm => 154
  | .vmem => 0
  | .smem => 0
  | _ => 0

abbrev hbmTy0_0 (i : Nat) : BufTy := match i % 128 with
  | 0 => ⟨S8x128, .f32⟩
  | 1 => ⟨S32x32x32x3, .f32⟩
  | 2 => ⟨S48x48x48x3, .f32⟩
  | 3 => ⟨S128x3, .f32⟩
  | 4 => ⟨S128, .f32⟩
  | 5 => ⟨S256x128, .f32⟩
  | 6 => ⟨S256, .f32⟩
  | 7 => ⟨S128x128, .f32⟩
  | 8 => ⟨S128, .f32⟩
  | 9 => ⟨S256x128, .f32⟩
  | 10 => ⟨S256, .f32⟩
  | 11 => ⟨S4x128, .f32⟩
  | 12 => ⟨S4, .f32⟩
  | 13 => ⟨S8x128, .f32⟩
  | 14 => ⟨S8, .f32⟩
  | 15 => ⟨S1x32768x3, .f32⟩
  | 16 => ⟨S8x32768x3, .f32⟩
  | 17 => ⟨S128x256, .f32⟩
  | 18 => ⟨S8x256, .f32⟩
  | 19 => ⟨S1x256, .f32⟩
  | 20 => ⟨S8x256, .f32⟩
  | 21 => ⟨S8x256, .f32⟩
  | 22 => ⟨S8x128, .f32⟩
  | 23 => ⟨S8x128, .f32⟩
  | 24 => ⟨S8x32768x128, .f32⟩
  | 25 => ⟨S1x1x128, .f32⟩
  | 26 => ⟨S8x32768x128, .f32⟩
  | 27 => ⟨S8x32768x128, .f32⟩
  | 28 => ⟨S8x1x128, .f32⟩
  | 29 => ⟨S_, .f32⟩
  | 30 => ⟨S8x1x128, .f32⟩
  | 31 => ⟨S8x1x128, .f32⟩
  | 32 => ⟨S8x32768x128, .f32⟩
  | 33 => ⟨S8x32768x128, .f32⟩
  | 34 => ⟨S8x1x128, .f32⟩
  | 35 => ⟨S8x32768x128, .f32⟩
  | 36 => ⟨S8x32768x128, .f32⟩
  | 37 => ⟨S_, .f32⟩
  | 38 => ⟨S8x32768x128, .f32⟩
  | 39 => ⟨S8x32768x128, .f32⟩
  | 40 => ⟨S128x256, .f32⟩
  | 41 => ⟨S8x256, .f32⟩
  | 42 => ⟨S1x256, .f32⟩
  | 43 => ⟨S8x256, .f32⟩
  | 44 => ⟨S8x256, .f32⟩
  | 45 => ⟨S8x128, .f32⟩
  | 46 => ⟨S8x128, .f32⟩
  | 47 => ⟨S8x32768x128, .f32⟩
  | 48 => ⟨S1x1x128, .f32⟩
  | 49 => ⟨S8x32768x128, .f32⟩
  | 50 => ⟨S8x32768x128, .f32⟩
  | 51 => ⟨S8x1x128, .f32⟩
  | 52 => ⟨S_, .f32⟩
  | 53 => ⟨S8x1x128, .f32⟩
  | 54 => ⟨S8x1x128, .f32⟩
  | 55 => ⟨S8x32768x128, .f32⟩
  | 56 => ⟨S8x32768x128, .f32⟩
  | 57 => ⟨S8x1x128, .f32⟩
  | 58 => ⟨S8x32768x128, .f32⟩
  | 59 => ⟨S8x32768x128, .f32⟩
  | 60 => ⟨S_, .f32⟩
  | 61 => ⟨S8x32768x128, .f32⟩
  | 62 => ⟨S8x32768x128, .f32⟩
  | 63 => ⟨S128x8, .f32⟩
  | 64 => ⟨S8x8, .f32⟩
  | 65 => ⟨S1x8, .f32⟩
  | 66 => ⟨S8x8, .f32⟩
  | 67 => ⟨S8x8, .f32⟩
  | 68 => ⟨S8x4, .f32⟩
  | 69 => ⟨S8x4, .f32⟩
  | 70 => ⟨S8x32768x4, .f32⟩
  | 71 => ⟨S1x1x4, .f32⟩
  | 72 => ⟨S8x32768x4, .f32⟩
  | 73 => ⟨S8x32768x4, .f32⟩
  | 74 => ⟨S8x1x4, .f32⟩
  | 75 => ⟨S_, .f32⟩
  | 76 => ⟨S8x1x4, .f32⟩
  | 77 => ⟨S8x1x4, .f32⟩
  | 78 => ⟨S8x32768x4, .f32⟩
  | 79 => ⟨S8x32768x4, .f32⟩
  | 80 => ⟨S8x1x4, .f32⟩
  | 81 => ⟨S8x32768x4, .f32⟩
  | 82 => ⟨S8x32768x4, .f32⟩
  | 83 => ⟨S8x131072, .f32⟩
  | 84 => ⟨S1x110592x3, .f32⟩
  | 85 => ⟨S8x110592x3, .f32⟩
  | 86 => ⟨S128x256, .f32⟩
  | 87 => ⟨S8x256, .f32⟩
  | 88 => ⟨S1x256, .f32⟩
  | 89 => ⟨S8x256, .f32⟩
  | 90 => ⟨S8x256, .f32⟩
  | 91 => ⟨S8x128, .f32⟩
  | 92 => ⟨S8x128, .f32⟩
  | 93 => ⟨S8x110592x128, .f32⟩
  | 94 => ⟨S1x1x128, .f32⟩
  | 95 => ⟨S8x110592x128, .f32⟩
  | 96 => ⟨S8x110592x128, .f32⟩
  | 97 => ⟨S8x1x128, .f32⟩
  | 98 => ⟨S_, .f32⟩
  | 99 => ⟨S8x1x128, .f32⟩
  | 100 => ⟨S8x1x128, .f32⟩
  | 101 => ⟨S8x110592x128, .f32⟩
  | 102 => ⟨S8x110592x128, .f32⟩
  | 103 => ⟨S8x1x128, .f32⟩
  | 104 => ⟨S8x110592x128, .f32⟩
  | 105 => ⟨S8x110592x128, .f32⟩
  | 106 => ⟨S_, .f32⟩
  | 107 => ⟨S8x110592x128, .f32⟩
  | 108 => ⟨S8x110592x128, .f32⟩
  | 109 => ⟨S128x256, .f32⟩
  | 110 => ⟨S8x256, .f32⟩
  | 111 => ⟨S1x256, .f32⟩
  | 112 => ⟨S8x256, .f32⟩
  | 113 => ⟨S8x256, .f32⟩
  | 114 => ⟨S8x128, .f32⟩
  | 115 => ⟨S8x128, .f32⟩
  | 116 => ⟨S8x110592x128, .f32⟩
  | 117 => ⟨S1x1x128, .f32⟩
  | 118 => ⟨S8x110592x128, .f32⟩
  | 119 => ⟨S8x110592x128, .f32⟩
  | 120 => ⟨S8x1x128, .f32⟩
  | 121 => ⟨S_, .f32⟩
  | 122 => ⟨S8x1x128, .f32⟩
  | 123 => ⟨S8x1x128, .f32⟩
  | 124 => ⟨S8x110592x128, .f32⟩
  | 125 => ⟨S8x110592x128, .f32⟩
  | 126 => ⟨S8x1x128, .f32⟩
  | 127 => ⟨S8x110592x128, .f32⟩
  | _ => ⟨S8x128, .f32⟩

abbrev hbmTy0_1 (i : Nat) : BufTy := match i % 128 with
  | 0 => ⟨S8x110592x128, .f32⟩
  | 1 => ⟨S_, .f32⟩
  | 2 => ⟨S8x110592x128, .f32⟩
  | 3 => ⟨S8x110592x128, .f32⟩
  | 4 => ⟨S128x8, .f32⟩
  | 5 => ⟨S8x8, .f32⟩
  | 6 => ⟨S1x8, .f32⟩
  | 7 => ⟨S8x8, .f32⟩
  | 8 => ⟨S8x8, .f32⟩
  | 9 => ⟨S8x4, .f32⟩
  | 10 => ⟨S8x4, .f32⟩
  | 11 => ⟨S8x110592x4, .f32⟩
  | 12 => ⟨S1x1x4, .f32⟩
  | 13 => ⟨S8x110592x4, .f32⟩
  | 14 => ⟨S8x110592x4, .f32⟩
  | 15 => ⟨S8x1x4, .f32⟩
  | 16 => ⟨S_, .f32⟩
  | 17 => ⟨S8x1x4, .f32⟩
  | 18 => ⟨S8x1x4, .f32⟩
  | 19 => ⟨S8x110592x4, .f32⟩
  | 20 => ⟨S8x110592x4, .f32⟩
  | 21 => ⟨S8x1x4, .f32⟩
  | 22 => ⟨S8x110592x4, .f32⟩
  | 23 => ⟨S8x110592x4, .f32⟩
  | 24 => ⟨S8x442368, .f32⟩
  | 25 => ⟨S8x573440, .f32⟩
  | _ => ⟨S8x128, .f32⟩

abbrev hbmTy (i : Nat) : BufTy := match i / 128 with
  | 0 => hbmTy0_0 i
  | 1 => hbmTy0_1 i
  | _ => ⟨S8x128, .f32⟩

abbrev bufTy : (tb : Table) → Fin (tcTables nBuf tb) → BufTy
  | .hbm, ⟨i, _⟩ => hbmTy i
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_cst : Ref sig .tc := ⟨.hbm, 37, rfl⟩
abbrev main_call0_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_1 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_2 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_call2_cst : Ref sig .tc := ⟨.hbm, 106, rfl⟩
abbrev main_call2_v0 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_3 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_call3_cst : Ref sig .tc := ⟨.hbm, 129, rfl⟩
abbrev main_call3_v0 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_4 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩

abbrev nD : Nat := 1
abbrev τ : Topo := Topo.v7x

variable {F : FTy → Type} [FloatOps F]

class Facts₀ : Prop where
  shapeCasts_S32x32x32x3_S1x32768x3 : S32x32x32x3.ShapeCasts S1x32768x3
  bcast_S1x32768x3_S8x32768x3_0_1_2 : S1x32768x3.BroadcastsInDim S8x32768x3 (![0, 1, 2] : Fin 3 → Fin S8x32768x3.rank)
  transposes_S256x128_S128x256_1_0 : S256x128.Transposes [1, 0] S128x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  slices_S8x256_S8x128_0_0 : S8x256.Slices ![0, 0] S8x128
  slices_S8x256_S8x128_0_128 : S8x256.Slices ![0, 128] S8x128
  bcast_S128_S1x1x128_2 : S128.BroadcastsInDim S1x1x128 (![2] : Fin 1 → Fin S1x1x128.rank)
  bcast_S1x1x128_S8x32768x128_0_1_2 : S1x1x128.BroadcastsInDim S8x32768x128 (![0, 1, 2] : Fin 3 → Fin S8x32768x128.rank)
  bcast_S8x128_S8x1x128_0_2 : S8x128.BroadcastsInDim S8x1x128 (![0, 2] : Fin 2 → Fin S8x1x128.rank)
  bcast_S_S8x1x128 : S_.BroadcastsInDim S8x1x128 (![] : Fin 0 → Fin S8x1x128.rank)
  bcast_S8x1x128_S8x32768x128_0_1_2 : S8x1x128.BroadcastsInDim S8x32768x128 (![0, 1, 2] : Fin 3 → Fin S8x32768x128.rank)
  bcast_S_S8x32768x128 : S_.BroadcastsInDim S8x32768x128 (![] : Fin 0 → Fin S8x32768x128.rank)
  transposes_S8x128_S128x8_1_0 : S8x128.Transposes [1, 0] S128x8
  bcast_S8_S1x8_1 : S8.BroadcastsInDim S1x8 (![1] : Fin 1 → Fin S1x8.rank)
  bcast_S1x8_S8x8_0_1 : S1x8.BroadcastsInDim S8x8 (![0, 1] : Fin 2 → Fin S8x8.rank)
  slices_S8x8_S8x4_0_0 : S8x8.Slices ![0, 0] S8x4
  slices_S8x8_S8x4_0_4 : S8x8.Slices ![0, 4] S8x4
  bcast_S4_S1x1x4_2 : S4.BroadcastsInDim S1x1x4 (![2] : Fin 1 → Fin S1x1x4.rank)
  bcast_S1x1x4_S8x32768x4_0_1_2 : S1x1x4.BroadcastsInDim S8x32768x4 (![0, 1, 2] : Fin 3 → Fin S8x32768x4.rank)
  bcast_S8x4_S8x1x4_0_2 : S8x4.BroadcastsInDim S8x1x4 (![0, 2] : Fin 2 → Fin S8x1x4.rank)
  bcast_S_S8x1x4 : S_.BroadcastsInDim S8x1x4 (![] : Fin 0 → Fin S8x1x4.rank)
  bcast_S8x1x4_S8x32768x4_0_1_2 : S8x1x4.BroadcastsInDim S8x32768x4 (![0, 1, 2] : Fin 3 → Fin S8x32768x4.rank)
  shapeCasts_S8x32768x4_S8x131072 : S8x32768x4.ShapeCasts S8x131072
  shapeCasts_S48x48x48x3_S1x110592x3 : S48x48x48x3.ShapeCasts S1x110592x3
  bcast_S1x110592x3_S8x110592x3_0_1_2 : S1x110592x3.BroadcastsInDim S8x110592x3 (![0, 1, 2] : Fin 3 → Fin S8x110592x3.rank)
  bcast_S1x1x128_S8x110592x128_0_1_2 : S1x1x128.BroadcastsInDim S8x110592x128 (![0, 1, 2] : Fin 3 → Fin S8x110592x128.rank)
  bcast_S8x1x128_S8x110592x128_0_1_2 : S8x1x128.BroadcastsInDim S8x110592x128 (![0, 1, 2] : Fin 3 → Fin S8x110592x128.rank)
  bcast_S_S8x110592x128 : S_.BroadcastsInDim S8x110592x128 (![] : Fin 0 → Fin S8x110592x128.rank)
  bcast_S1x1x4_S8x110592x4_0_1_2 : S1x1x4.BroadcastsInDim S8x110592x4 (![0, 1, 2] : Fin 3 → Fin S8x110592x4.rank)
  bcast_S8x1x4_S8x110592x4_0_1_2 : S8x1x4.BroadcastsInDim S8x110592x4 (![0, 1, 2] : Fin 3 → Fin S8x110592x4.rank)
  shapeCasts_S8x110592x4_S8x442368 : S8x110592x4.ShapeCasts S8x442368
  concatenates_S8x131072_S8x442368_S8x573440_d1 : Shape.Concatenates [S8x131072, S8x442368] S8x573440 1
  dot_S8x128_S128x256_S8x256_1_0_0_1_n_n_wf : DotDims.WF S8x128 S128x256 S8x256 [1] [0] [0] [1] [] []
  dot_S8x32768x3_S128x3_S8x32768x128_2_1_01_0_n_n_wf : DotDims.WF S8x32768x3 S128x3 S8x32768x128 [2] [1] [0, 1] [0] [] []
  dot_S8x32768x128_S128x128_S8x32768x128_2_1_01_0_n_n_wf : DotDims.WF S8x32768x128 S128x128 S8x32768x128 [2] [1] [0, 1] [0] [] []
  dot_S8x128_S128x8_S8x8_1_0_0_1_n_n_wf : DotDims.WF S8x128 S128x8 S8x8 [1] [0] [0] [1] [] []
  dot_S8x32768x128_S4x128_S8x32768x4_2_1_01_0_n_n_wf : DotDims.WF S8x32768x128 S4x128 S8x32768x4 [2] [1] [0, 1] [0] [] []
  dot_S8x110592x3_S128x3_S8x110592x128_2_1_01_0_n_n_wf : DotDims.WF S8x110592x3 S128x3 S8x110592x128 [2] [1] [0, 1] [0] [] []
  dot_S8x110592x128_S128x128_S8x110592x128_2_1_01_0_n_n_wf : DotDims.WF S8x110592x128 S128x128 S8x110592x128 [2] [1] [0, 1] [0] [] []
  dot_S8x110592x128_S4x128_S8x110592x4_2_1_01_0_n_n_wf : DotDims.WF S8x110592x128 S4x128 S8x110592x4 [2] [1] [0, 1] [0] [] []

variable [Facts₀]

def dot_S8x128_S128x256_S8x256_1_0_0_1_n_n : DotDims S8x128 S128x256 S8x256 where
  lhsContracting := [1]
  rhsContracting := [0]
  lhsNonContracting := [0]
  rhsNonContracting := [1]
  lhsBatch := []
  rhsBatch := []
  wf := dot_S8x128_S128x256_S8x256_1_0_0_1_n_n_wf
def dot_S8x32768x3_S128x3_S8x32768x128_2_1_01_0_n_n : DotDims S8x32768x3 S128x3 S8x32768x128 where
  lhsContracting := [2]
  rhsContracting := [1]
  lhsNonContracting := [0, 1]
  rhsNonContracting := [0]
  lhsBatch := []
  rhsBatch := []
  wf := dot_S8x32768x3_S128x3_S8x32768x128_2_1_01_0_n_n_wf
def dot_S8x32768x128_S128x128_S8x32768x128_2_1_01_0_n_n : DotDims S8x32768x128 S128x128 S8x32768x128 where
  lhsContracting := [2]
  rhsContracting := [1]
  lhsNonContracting := [0, 1]
  rhsNonContracting := [0]
  lhsBatch := []
  rhsBatch := []
  wf := dot_S8x32768x128_S128x128_S8x32768x128_2_1_01_0_n_n_wf
def dot_S8x128_S128x8_S8x8_1_0_0_1_n_n : DotDims S8x128 S128x8 S8x8 where
  lhsContracting := [1]
  rhsContracting := [0]
  lhsNonContracting := [0]
  rhsNonContracting := [1]
  lhsBatch := []
  rhsBatch := []
  wf := dot_S8x128_S128x8_S8x8_1_0_0_1_n_n_wf
def dot_S8x32768x128_S4x128_S8x32768x4_2_1_01_0_n_n : DotDims S8x32768x128 S4x128 S8x32768x4 where
  lhsContracting := [2]
  rhsContracting := [1]
  lhsNonContracting := [0, 1]
  rhsNonContracting := [0]
  lhsBatch := []
  rhsBatch := []
  wf := dot_S8x32768x128_S4x128_S8x32768x4_2_1_01_0_n_n_wf
def dot_S8x110592x3_S128x3_S8x110592x128_2_1_01_0_n_n : DotDims S8x110592x3 S128x3 S8x110592x128 where
  lhsContracting := [2]
  rhsContracting := [1]
  lhsNonContracting := [0, 1]
  rhsNonContracting := [0]
  lhsBatch := []
  rhsBatch := []
  wf := dot_S8x110592x3_S128x3_S8x110592x128_2_1_01_0_n_n_wf
def dot_S8x110592x128_S128x128_S8x110592x128_2_1_01_0_n_n : DotDims S8x110592x128 S128x128 S8x110592x128 where
  lhsContracting := [2]
  rhsContracting := [1]
  lhsNonContracting := [0, 1]
  rhsNonContracting := [0]
  lhsBatch := []
  rhsBatch := []
  wf := dot_S8x110592x128_S128x128_S8x110592x128_2_1_01_0_n_n_wf
def dot_S8x110592x128_S4x128_S8x110592x4_2_1_01_0_n_n : DotDims S8x110592x128 S4x128 S8x110592x4 where
  lhsContracting := [2]
  rhsContracting := [1]
  lhsNonContracting := [0, 1]
  rhsNonContracting := [0]
  lhsBatch := []
  rhsBatch := []
  wf := dot_S8x110592x128_S4x128_S8x110592x4_2_1_01_0_n_n_wf

class Facts : Prop extends Facts₀ where

variable [Facts]
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibModLayer.lean ====
/-
  One modulated linear layer of a point-wise network, as a kernel prints it on a tile, read at coordinates at the
  ideal values.

  A tile holds `a` batch rows of `b` points with `c` features each, as an [a, b, c] array, and the same numbers as
  an [a·b, c] matrix whose row p·b + q is point q of batch row p. Three printed groups of operations are read here:
  the scale-and-shift `y · (w + s) + sh` with the [a, c] matrices `s` and `sh` spread over the points through
  [a, 1, c]; the rectifier `max y z` with a splat `z` of zero followed by the fold to [a·b, c]; and the linear map
  `L · R + bias`, a plain matrix product into the zero accumulator plus a [B] vector spread over the rows through [1, B].
-/
import Idealize.ShloMosaic.Lib.ValueLayout
import Idealize.ShloMosaic.Lib.Pipeline.Value
import Idealize.ShloMosaic.Lib.ValueIdx
import Idealize.ShloMosaic.PureOps.Ideal.Laws
import proofs.«137301_j13537736917463_2_alg».proof.Proof.LibRank3
import proofs.«137301_j13537736917463_2_alg».proof.Proof.LibPlainMatmul

noncomputable section

namespace Cert.LibModLayer

open Idealize.ShloMosaic Idealize.ShloMosaic.ValueIdx Cert.LibRank3

/-- Scale and shift: `y · (w + s) + sh` at (p, q, e) is `y(p,q,e) · (w + s(p,e)) + sh(p,e)`, where the [a, c]
    matrices `s` and `sh` are viewed as [a, 1, c] and spread over the b points, and `w` is a splat scalar. -/
theorem scale_shift_apply {a b c : ℕ} (y : FVec Ideal ⟨3, ![a, b, c]⟩ .f32) (s sh : FVec Ideal ⟨2, ![a, c]⟩ .f32)
    (w : Ideal .f32) (hc : (⟨2, ![a, c]⟩ : Shape).ShapeCasts ⟨3, ![a, 1, c]⟩)
    (hb : (⟨3, ![a, 1, c]⟩ : Shape).Broadcasts ⟨3, ![a, b, c]⟩) (p : Fin a) (q : Fin b) (e : Fin c) :
    addf (mulf y (broadcastTo ⟨3, ![a, b, c]⟩ (addf (broadcast ⟨3, ![a, 1, c]⟩ w) (shapeCast ⟨3, ![a, 1, c]⟩ s hc)) hb))
        (broadcastTo ⟨3, ![a, b, c]⟩ (shapeCast ⟨3, ![a, 1, c]⟩ sh hc) hb) (ix3 p q e)
      = y (ix3 p q e) * (w + s (ix2 p e)) + sh (ix2 p e) := by
  show y (ix3 p q e) * broadcastTo ⟨3, ![a, b, c]⟩ (addf (broadcast ⟨3, ![a, 1, c]⟩ w) (shapeCast ⟨3, ![a, 1, c]⟩ s hc)) hb (ix3 p q e)
      + broadcastTo ⟨3, ![a, b, c]⟩ (shapeCast ⟨3, ![a, 1, c]⟩ sh hc) hb (ix3 p q e) = _
  rw [bcast_a1c_abc _ hb p q e 0, bcast_a1c_abc _ hb p q e 0]
  show y (ix3 p q e) * (w + shapeCast ⟨3, ![a, 1, c]⟩ s hc (ix3 p 0 e)) + shapeCast ⟨3, ![a, 1, c]⟩ sh hc (ix3 p 0 e) = _
  rw [cast_ac_a1c s hc p 0 e, cast_ac_a1c sh hc p 0 e]

/-- The rectifier with a zero splat, folded to [n, c], n = a·b: row p·b + q holds `max (y(p,q,·)) 0`. -/
theorem relu_fold_apply {a b c : ℕ} (n : ℕ) (hn : n = a * b) (y : FVec Ideal ⟨3, ![a, b, c]⟩ .f32) (w : Ideal .f32)
    (hw : w = (0 : EReal)) (h : (⟨3, ![a, b, c]⟩ : Shape).ShapeCasts ⟨2, ![n, c]⟩) (p : Fin a) (q : Fin b) (e : Fin c) :
    shapeCast ⟨2, ![n, c]⟩ (maximumf y (broadcast ⟨3, ![a, b, c]⟩ w)) h (ix2 (flat n hn p q) e) = max (y (ix3 p q e)) 0 := by
  rw [cast_abc_nc n hn _ h p q e]
  show max (y (ix3 p q e)) w = _
  rw [hw]

/-- The linear map: a plain [A, K] × [K, B] product into the zero accumulator plus a [B] vector viewed as [1, B] and
    spread over the rows, at (p, o): `(Σ_k L(p,k) · R(k,o)) + bias(o)`. -/
theorem linear_apply (A K B : ℕ) {φ₁ φ₂ : FTy} (D : DotDims ⟨2, ![A, K]⟩ ⟨2, ![K, B]⟩ ⟨2, ![A, B]⟩) (hD : D = DotDims.plain A K B)
    (prec : Option ContractPrecision) (L : FVec Ideal ⟨2, ![A, K]⟩ φ₁) (R : FVec Ideal ⟨2, ![K, B]⟩ φ₂)
    (bias : FVec Ideal ⟨1, ![B]⟩ .f32) (hc : (⟨1, ![B]⟩ : Shape).ShapeCasts ⟨2, ![1, B]⟩)
    (hb : (⟨2, ![1, B]⟩ : Shape).Broadcasts ⟨2, ![A, B]⟩) (p : Fin A) (o : Fin B) :
    addf (FloatOps.matmul D prec L R (constant ⟨2, ![A, B]⟩ .f32 0x00000000#32))
        (broadcastTo ⟨2, ![A, B]⟩ (shapeCast ⟨2, ![1, B]⟩ bias hc) hb) (ix2 p o)
      = (∑ k : Fin K, L (ix2 p k) * R (ix2 k o)) + bias (ix1 o) := by
  subst hD
  show FloatOps.matmul (DotDims.plain A K B) prec L R (constant ⟨2, ![A, B]⟩ .f32 0x00000000#32) (ix2 p o)
      + broadcastTo ⟨2, ![A, B]⟩ (shapeCast ⟨2, ![1, B]⟩ bias hc) hb (ix2 p o) = _
  rw [matmul_plain_zero_apply A K B prec L R p o, broadcastTo_1b_ab_apply _ hb p o, shapeCast_a_1a_apply bias hc 0 o]

/-- An [a, b, c] array flattened along its last two axes to [a, m], m = b·c: column q·c + e of row p is entry (p, q, e). -/
theorem cast_abc_am {α : Type} {a b c : ℕ} (m : ℕ) (hm : m = b * c) (x : (⟨3, ![a, b, c]⟩ : Shape).Idx → α)
    (h : (⟨3, ![a, b, c]⟩ : Shape).ShapeCasts ⟨2, ![a, m]⟩) (p : Fin a) (q : Fin b) (e : Fin c) (col : Fin m)
    (hcol : col.val = q.val * c + e.val) :
    shapeCast ⟨2, ![a, m]⟩ x h (ix2 p col) = x (ix3 p q e) :=
  shapeCast_apply x h _ _ (by
    rw [Shape.rowMajor_val_three, Shape.rowMajor_val_two]
    show (p.val * b + q.val) * c + e.val = p.val * m + col.val
    rw [hcol, hm, Nat.add_mul, Nat.mul_assoc, Nat.add_assoc])

/-- A [b, c] matrix viewed as [1, b, c] and spread over [a, b, c]: the leading coordinate is forgotten. -/
theorem spread_points_apply {α : Type} {a b c : ℕ} (x : (⟨2, ![b, c]⟩ : Shape).Idx → α)
    (hc : (⟨2, ![b, c]⟩ : Shape).ShapeCasts ⟨3, ![1, b, c]⟩) (hb : (⟨3, ![1, b, c]⟩ : Shape).Broadcasts ⟨3, ![a, b, c]⟩)
    (p : Fin a) (q : Fin b) (e : Fin c) :
    broadcastTo ⟨3, ![a, b, c]⟩ (shapeCast ⟨3, ![1, b, c]⟩ x hc) hb (ix3 p q e) = x (ix2 q e) := by
  rw [bcast_1bc_abc _ hb p q e 0, shapeCast_ab_1ab_apply x hc 0 q e]

end Cert.LibModLayer

end
-- ==== Proof.Spec.lean ====
/-
  The network both programs compute, read one grid point and one batch row at a time.

  A point of a grid is a row of three coordinates. For a batch row `b` the latent vector `z b` gives each layer a
  modulation: `modv z M mb b j = (Σ_k z(b,k) · M(j,k)) + mb(j)`, whose first half is the layer's scale and whose
  second half is its shift. A layer sends a row `h` to `o ↦ ((Σ_k h(k) · W(o,k)) + bias(o)) · (1 + scale(o)) + shift(o)`;
  the first two layers are followed by the rectifier `v ↦ max v 0`. The result array has one row per batch row and,
  along its second axis, the four outputs of point 0, then those of point 1, and so on, the points of the first grid
  (its 32·32·32 rows in row-major order) before those of the second (48·48·48 rows): column `c` holds output `c % 4`
  of point `c / 4`.
-/
import Idealize.ShloMosaic.PureOps.Ideal
import Idealize.ShloMosaic.Lib.ValueIdx

noncomputable section

namespace Cert.ModNet

open Idealize.ShloMosaic Idealize.ShloMosaic.ValueIdx

/-- The float word of 1.0, as both programs spell it. -/
abbrev one : EReal := Ideal.ofBits .f32 0x3F800000#32

/-- One modulated linear layer on a row: `o ↦ ((Σ_k h k · W o k) + bias o) · (1 + s o) + sh o`. -/
def layer {K O : ℕ} (W : Fin O → Fin K → EReal) (bias s sh : Fin O → EReal) (h : Fin K → EReal) : Fin O → EReal :=
  fun o => ((∑ k : Fin K, h k * W o k) + bias o) * (one + s o) + sh o

/-- The rectifier of a row. -/
def relu {O : ℕ} (v : Fin O → EReal) : Fin O → EReal := fun o => max (v o) 0

/-- The modulation of batch row `b`: `j ↦ (Σ_k z(b,k) · M(j,k)) + mb(j)`. -/
def modv {J : ℕ} (z : (⟨2, ![8, 128]⟩ : Shape).Idx → EReal) (M : (⟨2, ![J, 128]⟩ : Shape).Idx → EReal)
    (mb : (⟨1, ![J]⟩ : Shape).Idx → EReal) (b : Fin 8) : Fin J → EReal :=
  fun j => (∑ k : Fin 128, z (ix2 b k) * M (ix2 j k)) + mb (ix1 j)

/-- The first half of a vector of even length: a layer's scale. -/
def lo {O J : ℕ} (h : O + O = J) (v : Fin J → EReal) : Fin O → EReal := fun o => v ⟨o.val, by have := o.isLt; omega⟩

/-- The second half: its shift. -/
def hi {O J : ℕ} (h : O + O = J) (v : Fin J → EReal) : Fin O → EReal := fun o => v ⟨O + o.val, by have := o.isLt; omega⟩

/-- A weight matrix as a function of output and input. -/
def wt {O K : ℕ} (W : (⟨2, ![O, K]⟩ : Shape).Idx → EReal) : Fin O → Fin K → EReal := fun o k => W (ix2 o k)

/-- A bias vector as a function of the output. -/
def vec {O : ℕ} (v : (⟨1, ![O]⟩ : Shape).Idx → EReal) : Fin O → EReal := fun o => v (ix1 o)

/-- The three layers on one point `x` for batch row `b`. -/
def net (z : (⟨2, ![8, 128]⟩ : Shape).Idx → EReal)
    (W0 : (⟨2, ![128, 3]⟩ : Shape).Idx → EReal) (b0 : (⟨1, ![128]⟩ : Shape).Idx → EReal)
    (M0 : (⟨2, ![256, 128]⟩ : Shape).Idx → EReal) (mb0 : (⟨1, ![256]⟩ : Shape).Idx → EReal)
    (W1 : (⟨2, ![128, 128]⟩ : Shape).Idx → EReal) (b1 : (⟨1, ![128]⟩ : Shape).Idx → EReal)
    (M1 : (⟨2, ![256, 128]⟩ : Shape).Idx → EReal) (mb1 : (⟨1, ![256]⟩ : Shape).Idx → EReal)
    (W2 : (⟨2, ![4, 128]⟩ : Shape).Idx → EReal) (b2 : (⟨1, ![4]⟩ : Shape).Idx → EReal)
    (M2 : (⟨2, ![8, 128]⟩ : Shape).Idx → EReal) (mb2 : (⟨1, ![8]⟩ : Shape).Idx → EReal)
    (b : Fin 8) (x : Fin 3 → EReal) : Fin 4 → EReal :=
  layer (wt W2) (vec b2) (lo (O := 4) rfl (modv z M2 mb2 b)) (hi (O := 4) rfl (modv z M2 mb2 b))
    (relu (layer (wt W1) (vec b1) (lo (O := 128) rfl (modv z M1 mb1 b)) (hi (O := 128) rfl (modv z M1 mb1 b))
      (relu (layer (wt W0) (vec b0) (lo (O := 128) rfl (modv z M0 mb0 b)) (hi (O := 128) rfl (modv z M0 mb0 b)) x))))

/-- Row `r` of a grid of points laid out as an [n, 3] matrix in row-major order. -/
def rows {S : Shape} {n : ℕ} (x : S.Idx → EReal) (h : S.ShapeCasts ⟨2, ![n, 3]⟩) (r : Fin n) : Fin 3 → EReal :=
  fun d => shapeCast ⟨2, ![n, 3]⟩ x h (ix2 r d)

/-- Point `N` of the two grids taken one after the other. -/
def point (x0 : (⟨4, ![32, 32, 32, 3]⟩ : Shape).Idx → EReal) (x1 : (⟨4, ![48, 48, 48, 3]⟩ : Shape).Idx → EReal)
    (N : Fin 143360) : Fin 3 → EReal :=
  if hN : N.val < 32768 then rows (n := 32768) x0 (by decide) ⟨N.val, hN⟩
  else rows (n := 110592) x1 (by decide) ⟨N.val - 32768, by have := N.isLt; omega⟩

/-- The result at batch row `b` and column `c`: output `c % 4` of the network on point `c / 4`. -/
def Gat (z : (⟨2, ![8, 128]⟩ : Shape).Idx → EReal)
    (x0 : (⟨4, ![32, 32, 32, 3]⟩ : Shape).Idx → EReal) (x1 : (⟨4, ![48, 48, 48, 3]⟩ : Shape).Idx → EReal)
    (W0 : (⟨2, ![128, 3]⟩ : Shape).Idx → EReal) (b0 : (⟨1, ![128]⟩ : Shape).Idx → EReal)
    (M0 : (⟨2, ![256, 128]⟩ : Shape).Idx → EReal) (mb0 : (⟨1, ![256]⟩ : Shape).Idx → EReal)
    (W1 : (⟨2, ![128, 128]⟩ : Shape).Idx → EReal) (b1 : (⟨1, ![128]⟩ : Shape).Idx → EReal)
    (M1 : (⟨2, ![256, 128]⟩ : Shape).Idx → EReal) (mb1 : (⟨1, ![256]⟩ : Shape).Idx → EReal)
    (W2 : (⟨2, ![4, 128]⟩ : Shape).Idx → EReal) (b2 : (⟨1, ![4]⟩ : Shape).Idx → EReal)
    (M2 : (⟨2, ![8, 128]⟩ : Shape).Idx → EReal) (mb2 : (⟨1, ![8]⟩ : Shape).Idx → EReal)
    (b : Fin 8) (c : Fin 573440) : EReal :=
  net z W0 b0 M0 mb0 W1 b1 M1 mb1 W2 b2 M2 mb2 b
    (point x0 x1 ⟨c.val / 4, by have := c.isLt; omega⟩) ⟨c.val % 4, Nat.mod_lt _ (by decide)⟩

/-- The whole result array as one function of the fifteen argument arrays. -/
def G (z : (⟨2, ![8, 128]⟩ : Shape).Idx → EReal)
    (x0 : (⟨4, ![32, 32, 32, 3]⟩ : Shape).Idx → EReal) (x1 : (⟨4, ![48, 48, 48, 3]⟩ : Shape).Idx → EReal)
    (W0 : (⟨2, ![128, 3]⟩ : Shape).Idx → EReal) (b0 : (⟨1, ![128]⟩ : Shape).Idx → EReal)
    (M0 : (⟨2, ![256, 128]⟩ : Shape).Idx → EReal) (mb0 : (⟨1, ![256]⟩ : Shape).Idx → EReal)
    (W1 : (⟨2, ![128, 128]⟩ : Shape).Idx → EReal) (b1 : (⟨1, ![128]⟩ : Shape).Idx → EReal)
    (M1 : (⟨2, ![256, 128]⟩ : Shape).Idx → EReal) (mb1 : (⟨1, ![256]⟩ : Shape).Idx → EReal)
    (W2 : (⟨2, ![4, 128]⟩ : Shape).Idx → EReal) (b2 : (⟨1, ![4]⟩ : Shape).Idx → EReal)
    (M2 : (⟨2, ![8, 128]⟩ : Shape).Idx → EReal) (mb2 : (⟨1, ![8]⟩ : Shape).Idx → EReal) :
    (⟨2, ![8, 573440]⟩ : Shape).Idx → EReal :=
  fun i => Gat z x0 x1 W0 b0 M0 mb0 W1 b1 M1 mb1 W2 b2 M2 mb2 (i 0) (i 1)

end Cert.ModNet

end
-- ==== Proof.KernelRow.lean ====
/-
  What the kernel body stores on one tile, read at coordinates at the ideal values.

  A tile is 1024 points. The body forms x·W0ᵀ + b0 once per point, spreads it over the 8 batch rows, applies the first
  modulation and the rectifier, folds the [8, 1024, 128] array to an [8192, 128] matrix for the second product, unfolds,
  modulates and rectifies again, folds for the third product, modulates, and stores the [8, 1024, 4] result as an
  [8, 4096] block: column r·4 + f of row b is output f of the network on point r for batch row b. Each step is read
  with the layer lemmas; changes of float format and casts to the same shape change nothing.
-/
import Idealize.ShloMosaic.Lib.ValueLayout
import Idealize.ShloMosaic.Lib.Pipeline.Value
import Idealize.ShloMosaic.Lib.ValueIdx
import Idealize.ShloMosaic.PureOps.Ideal.Laws
import proofs.«137301_j13537736917463_2_alg».proof.Proof.Gen.KernelIdeal.Skeleton
import proofs.«137301_j13537736917463_2_alg».proof.Proof.LibModLayer
import proofs.«137301_j13537736917463_2_alg».proof.Proof.Spec

noncomputable section

namespace Cert.KernelIdeal.RowValue

open Cert.KernelIdeal Cert.KernelIdeal.Gen Idealize.ShloMosaic Idealize.ShloMosaic.ValueIdx Cert.LibRank3 Cert.LibModLayer Cert.ModNet

/-- A weight matrix stored transposed, [K, O], as a function of output and input. -/
def wtT {K O : ℕ} (W : (⟨2, ![K, O]⟩ : Shape).Idx → EReal) : Fin O → Fin K → EReal := fun o k => W (ix2 k o)

/-- Row `p` of a matrix. -/
def rowAt {A n : ℕ} (X : (⟨2, ![A, n]⟩ : Shape).Idx → EReal) (p : Fin A) : Fin n → EReal := fun k => X (ix2 p k)

/-- The first layer and its rectifier on point `r` of the tile for batch row `b`. -/
def h0 (xb : FVec Ideal S1024x3 .f32) (W0T : FVec Ideal S3x128 .f32) (b0 : FVec Ideal S128 .f32) (s0 sh0 : FVec Ideal S8x128 .f32)
    (b : Fin 8) (r : Fin 1024) : Fin 128 → EReal :=
  relu (layer (wtT W0T) (vec b0) (rowAt s0 b) (rowAt sh0 b) (rowAt xb r))

/-- The first payload at (b, r, o): the second layer's linear map of the rectified first layer, before its modulation. -/
theorem pay2_at (xb : FVec Ideal S1024x3 .f32) (W0T : FVec Ideal S3x128 .f32) (b0 : FVec Ideal S128 .f32) (s0 sh0 : FVec Ideal S8x128 .f32)
    (W1T : FVec Ideal S128x128 .f32) (b1 : FVec Ideal S128 .f32) (b : Fin 8) (r : Fin 1024) (o : Fin 128) :
    k0_pay2 (F := Ideal) xb W0T b0 s0 sh0 W1T b1 (ix3 b r o)
      = (∑ k : Fin 128, h0 xb W0T b0 s0 sh0 b r k * W1T (ix2 k o)) + b1 (ix1 o) := by
  unfold k0_pay2
  refine (cast_nc_abc 8192 rfl _ shapeCasts_S8192x128_S8x1024x128 b r o).trans ?_
  refine (linear_apply 8192 128 128 dot_S8192x128_S128x128_S8192x128_1_0_0_1_n_n rfl none _ _ b1 shapeCasts_S128_S1x128 broadcasts_S1x128_S8192x128 (flat 8192 rfl b r) o).trans ?_
  refine congrArg (· + b1 (ix1 o)) (Finset.sum_congr rfl fun k _ => ?_)
  show shapeCast S8192x128 (maximumf _ _) shapeCasts_S8x1024x128_S8192x128 (ix2 (flat 8192 rfl b r) k)
      * shapeCast S128x128 W1T shapeCasts_S128x128_S128x128 (ix2 k o) = _
  rw [shapeCast_self W1T]
  refine congrArg (· * W1T (ix2 k o)) ?_
  refine (relu_fold_apply 8192 rfl _ _ Ideal.ofBits_zero_f32 shapeCasts_S8x1024x128_S8192x128 b r k).trans ?_
  refine congrArg (max · 0) ?_
  refine (scale_shift_apply _ _ _ _ shapeCasts_S8x128_S8x1x128 broadcasts_S8x1x128_S8x1024x128 b r k).trans ?_
  rw [shapeCast_self s0, shapeCast_self sh0,
    spread_points_apply _ shapeCasts_S1024x128_S1x1024x128 broadcasts_S1x1024x128_S8x1024x128 b r k,
    linear_apply 1024 3 128 dot_S1024x3_S3x128_S1024x128_1_0_0_1_n_n rfl none _ _ b0 shapeCasts_S128_S1x128 broadcasts_S1x128_S1024x128 r k]
  rw [shapeCast_self xb, shapeCast_self W0T]
  rfl

/-- The last payload over an abstract second-layer value `Y` and its scale `s1`: the second modulation and rectifier,
    the third layer, and the columns r·4 + f of the [8, 4096] block. -/
theorem pay1_at (Y : FVec Ideal S8x1024x128 .f32) (s1 sh1 : FVec Ideal S8x128 .f32) (W2T : FVec Ideal S128x4 .f32)
    (b2 : FVec Ideal S4 .f32) (s2 sh2 : FVec Ideal S8x4 .f32) (b : Fin 8) (r : Fin 1024) (f : Fin 4) (col : Fin 4096)
    (hcol : col.val = r.val * 4 + f.val) :
    k0_pay1 (F := Ideal) Y s1 sh1 W2T b2 s2 sh2 (ix2 b col)
      = layer (wtT W2T) (vec b2) (rowAt s2 b) (rowAt sh2 b)
          (relu fun k => Y (ix3 b r k) * (one + s1 (ix2 b k)) + sh1 (ix2 b k)) f := by
  unfold k0_pay1
  refine (cast_abc_am 4096 rfl _ shapeCasts_S8x1024x4_S8x4096 b r f col hcol).trans ?_
  refine (scale_shift_apply _ _ _ _ shapeCasts_S8x4_S8x1x4 broadcasts_S8x1x4_S8x1024x4 b r f).trans ?_
  rw [shapeCast_self s2, shapeCast_self sh2, cast_nc_abc 8192 rfl _ shapeCasts_S8192x4_S8x1024x4 b r f,
    linear_apply 8192 128 4 dot_S8192x128_S128x4_S8192x4_1_0_0_1_n_n rfl none _ _ b2 shapeCasts_S4_S1x4 broadcasts_S1x4_S8192x4 (flat 8192 rfl b r) f]
  refine congrArg (fun u => (u + b2 (ix1 f)) * (one + s2 (ix2 b f)) + sh2 (ix2 b f)) (Finset.sum_congr rfl fun k _ => ?_)
  show shapeCast S8192x128 (maximumf _ _) shapeCasts_S8x1024x128_S8192x128 (ix2 (flat 8192 rfl b r) k)
      * shapeCast S128x4 W2T shapeCasts_S128x4_S128x4 (ix2 k f) = _
  rw [shapeCast_self W2T]
  refine congrArg (· * W2T (ix2 k f)) ?_
  refine (relu_fold_apply 8192 rfl _ _ Ideal.ofBits_zero_f32 shapeCasts_S8x1024x128_S8192x128 b r k).trans ?_
  refine congrArg (max · 0) ?_
  refine (scale_shift_apply Y _ _ _ shapeCasts_S8x128_S8x1x128 broadcasts_S8x1x128_S8x1024x128 b r k).trans ?_
  rw [shapeCast_self sh1]
  rfl

/-- The whole network on point `r` of a tile for batch row `b`, over the tile's input blocks. -/
def tileNet (xb : FVec Ideal S1024x3 .f32) (s0 sh0 s1 sh1 : FVec Ideal S8x128 .f32) (s2 sh2 : FVec Ideal S8x4 .f32)
    (W0T : FVec Ideal S3x128 .f32) (b0 : FVec Ideal S128 .f32) (W1T : FVec Ideal S128x128 .f32) (b1 : FVec Ideal S128 .f32)
    (W2T : FVec Ideal S128x4 .f32) (b2 : FVec Ideal S4 .f32) (b : Fin 8) (r : Fin 1024) : Fin 4 → EReal :=
  layer (wtT W2T) (vec b2) (rowAt s2 b) (rowAt sh2 b)
    (relu (layer (wtT W1T) (vec b1) (rowAt s1 b) (rowAt sh1 b) (h0 xb W0T b0 s0 sh0 b r)))

/-- What the body stores, at batch row `b` and column r·4 + f of the [8, 4096] block: output `f` of the network on
    point `r` of the tile. -/
theorem pay_at (xb : FVec Ideal S1024x3 .f32) (s0 sh0 s1 sh1 : FVec Ideal S8x128 .f32) (s2 sh2 : FVec Ideal S8x4 .f32)
    (W0T : FVec Ideal S3x128 .f32) (b0 : FVec Ideal S128 .f32) (W1T : FVec Ideal S128x128 .f32) (b1 : FVec Ideal S128 .f32)
    (W2T : FVec Ideal S128x4 .f32) (b2 : FVec Ideal S4 .f32) (b : Fin 8) (r : Fin 1024) (f : Fin 4) (col : Fin 4096)
    (hcol : col.val = r.val * 4 + f.val) :
    k0_pay1 (F := Ideal) (k0_pay2 xb W0T b0 s0 sh0 W1T b1) (k0_pay3 s1) sh1 W2T b2 s2 sh2 (ix2 b col)
      = tileNet xb s0 sh0 s1 sh1 s2 sh2 W0T b0 W1T b1 W2T b2 b r f := by
  rw [pay1_at _ _ sh1 W2T b2 s2 sh2 b r f col hcol]
  unfold tileNet
  refine congrArg (fun v => layer (wtT W2T) (vec b2) (rowAt s2 b) (rowAt sh2 b) (relu v) f) (funext fun k => ?_)
  rw [pay2_at]
  unfold k0_pay3
  rw [shapeCast_self s1]
  rfl

end Cert.KernelIdeal.RowValue

end
-- ==== Proof.KernelTile.lean ====
/-
  A tile's network is the network of the specification once each input block is known: the tile's points are points
  of the two grids, the scale and shift blocks are the halves of the modulations, the weight blocks are the weight
  matrices transposed, and the bias blocks are the bias vectors.
-/
import proofs.«137301_j13537736917463_2_alg».proof.Proof.KernelRow

noncomputable section

namespace Cert.KernelIdeal.RowValue

open Cert.KernelIdeal Idealize.ShloMosaic Idealize.ShloMosaic.ValueIdx Cert.ModNet

/-- If point `r` of the tile is point `N` of the grids and every other block holds what the host prepared from the
    arguments, the tile's network at (b, r) is the specification's network on point `N` for batch row `b`. -/
theorem tileNet_eq_net
    (xb : FVec Ideal S1024x3 .f32) (s0 sh0 s1 sh1 : FVec Ideal S8x128 .f32) (s2 sh2 : FVec Ideal S8x4 .f32)
    (W0T : FVec Ideal S3x128 .f32) (b0 : FVec Ideal S128 .f32) (W1T : FVec Ideal S128x128 .f32) (b1 : FVec Ideal S128 .f32)
    (W2T : FVec Ideal S128x4 .f32) (b2 : FVec Ideal S4 .f32)
    (z : (⟨2, ![8, 128]⟩ : Shape).Idx → EReal)
    (x0 : (⟨4, ![32, 32, 32, 3]⟩ : Shape).Idx → EReal) (x1 : (⟨4, ![48, 48, 48, 3]⟩ : Shape).Idx → EReal)
    (W0 : (⟨2, ![128, 3]⟩ : Shape).Idx → EReal) (b0a : (⟨1, ![128]⟩ : Shape).Idx → EReal)
    (M0 : (⟨2, ![256, 128]⟩ : Shape).Idx → EReal) (mb0 : (⟨1, ![256]⟩ : Shape).Idx → EReal)
    (W1 : (⟨2, ![128, 128]⟩ : Shape).Idx → EReal) (b1a : (⟨1, ![128]⟩ : Shape).Idx → EReal)
    (M1 : (⟨2, ![256, 128]⟩ : Shape).Idx → EReal) (mb1 : (⟨1, ![256]⟩ : Shape).Idx → EReal)
    (W2 : (⟨2, ![4, 128]⟩ : Shape).Idx → EReal) (b2a : (⟨1, ![4]⟩ : Shape).Idx → EReal)
    (M2 : (⟨2, ![8, 128]⟩ : Shape).Idx → EReal) (mb2 : (⟨1, ![8]⟩ : Shape).Idx → EReal)
    (b : Fin 8) (r : Fin 1024) (N : Fin 143360)
    (hx : ∀ d : Fin 3, xb (ix2 r d) = point x0 x1 N d)
    (hs0 : ∀ o : Fin 128, s0 (ix2 b o) = lo (O := 128) rfl (modv z M0 mb0 b) o)
    (hsh0 : ∀ o : Fin 128, sh0 (ix2 b o) = hi (O := 128) rfl (modv z M0 mb0 b) o)
    (hs1 : ∀ o : Fin 128, s1 (ix2 b o) = lo (O := 128) rfl (modv z M1 mb1 b) o)
    (hsh1 : ∀ o : Fin 128, sh1 (ix2 b o) = hi (O := 128) rfl (modv z M1 mb1 b) o)
    (hs2 : ∀ o : Fin 4, s2 (ix2 b o) = lo (O := 4) rfl (modv z M2 mb2 b) o)
    (hsh2 : ∀ o : Fin 4, sh2 (ix2 b o) = hi (O := 4) rfl (modv z M2 mb2 b) o)
    (hW0 : ∀ (o : Fin 128) (k : Fin 3), W0T (ix2 k o) = W0 (ix2 o k))
    (hW1 : ∀ (o : Fin 128) (k : Fin 128), W1T (ix2 k o) = W1 (ix2 o k))
    (hW2 : ∀ (o : Fin 4) (k : Fin 128), W2T (ix2 k o) = W2 (ix2 o k))
    (hb0 : ∀ o : Fin 128, b0 (ix1 o) = b0a (ix1 o)) (hb1 : ∀ o : Fin 128, b1 (ix1 o) = b1a (ix1 o))
    (hb2 : ∀ o : Fin 4, b2 (ix1 o) = b2a (ix1 o)) :
    tileNet xb s0 sh0 s1 sh1 s2 sh2 W0T b0 W1T b1 W2T b2 b r
      = net z W0 b0a M0 mb0 W1 b1a M1 mb1 W2 b2a M2 mb2 b (point x0 x1 N) := by
  have ex : rowAt xb r = point x0 x1 N := funext hx
  have es0 : rowAt s0 b = lo (O := 128) rfl (modv z M0 mb0 b) := funext hs0
  have esh0 : rowAt sh0 b = hi (O := 128) rfl (modv z M0 mb0 b) := funext hsh0
  have es1 : rowAt s1 b = lo (O := 128) rfl (modv z M1 mb1 b) := funext hs1
  have esh1 : rowAt sh1 b = hi (O := 128) rfl (modv z M1 mb1 b) := funext hsh1
  have es2 : rowAt s2 b = lo (O := 4) rfl (modv z M2 mb2 b) := funext hs2
  have esh2 : rowAt sh2 b = hi (O := 4) rfl (modv z M2 mb2 b) := funext hsh2
  have eW0 : wtT W0T = wt W0 := funext fun o => funext fun k => hW0 o k
  have eW1 : wtT W1T = wt W1 := funext fun o => funext fun k => hW1 o k
  have eW2 : wtT W2T = wt W2 := funext fun o => funext fun k => hW2 o k
  have eb0 : vec b0 = vec b0a := funext hb0
  have eb1 : vec b1 = vec b1a := funext hb1
  have eb2 : vec b2 = vec b2a := funext hb2
  unfold tileNet h0 net
  rw [ex, es0, esh0, es1, esh1, es2, esh2, eW0, eW1, eW2, eb0, eb1, eb2]

end Cert.KernelIdeal.RowValue

end
-- ==== Proof.LibRowRead.lean ====
/-
  Rows of matrices, read through the operations a row-wise network is printed with, at the ideal values.

  A value of shape [A, n] is read one row at a time: `rowOf X p` is row `p` as a function of the column, and
  `mat W` is a weight matrix as a function of row and column. Each lemma says what one operation does to a row:
  a plain matrix product (a kernel's `tpu.matmul` into the zero accumulator, the host's `dot_general`) is the
  linear layer `j ↦ Σ_i h i · W i j` of the row; a maximum with the zero splat is the rectifier of the row; a
  change of float format and a shape cast to the same shape change nothing; a slice of columns takes those columns
  of the row; two matrices set side by side give the first's row followed by the second's.
-/
import Idealize.ShloMosaic.PureOps.Ideal.Laws
import Idealize.ShloMosaic.Lib.ValueIdx
import Idealize.ShloMosaic.Lib.Pipeline.Value
import proofs.«137301_j13537736917463_2_alg».proof.Proof.LibPlainMatmul

noncomputable section

namespace RowRead

open Idealize.ShloMosaic Idealize.ShloMosaic.ValueIdx Finset

/-- Row `p` of an [A, n] value, as a function of the column. -/
def rowOf {A n : ℕ} (X : (⟨2, ![A, n]⟩ : Shape).Idx → EReal) (p : Fin A) : Fin n → EReal := fun k => X (ix2 p k)

/-- A matrix as a function of row and column. -/
def mat {a b : ℕ} (W : (⟨2, ![a, b]⟩ : Shape).Idx → EReal) : Fin a → Fin b → EReal := fun i j => W (ix2 i j)

/-- Three matrices of one shape, by their place. -/
def mats3 {a b : ℕ} (u0 u1 u2 : (⟨2, ![a, b]⟩ : Shape).Idx → EReal) : Fin 3 → Fin a → Fin b → EReal :=
  fun n => mat (![u0, u1, u2] n)

/-- A kernel's plain [A, K] × [K, B] product into the zero accumulator: row `p` is the linear layer of the left
    operand's row `p`. -/
theorem rowOf_matmul {A K B : ℕ} {φ₁ φ₂ : FTy} (D : DotDims ⟨2, ![A, K]⟩ ⟨2, ![K, B]⟩ ⟨2, ![A, B]⟩) (hD : D = DotDims.plain A K B)
    (prec : Option ContractPrecision) (lhs : FVec Ideal ⟨2, ![A, K]⟩ φ₁) (rhs : FVec Ideal ⟨2, ![K, B]⟩ φ₂) (p : Fin A) :
    rowOf (FloatOps.matmul D prec lhs rhs (constant ⟨2, ![A, B]⟩ .f32 0x00000000#32)) p = fun j => ∑ i, rowOf lhs p i * mat rhs i j := by
  subst hD
  funext j
  exact matmul_plain_zero_apply A K B prec lhs rhs p j

/-- The host's plain [A, K] × [K, B] `dot_general`: the same. -/
theorem rowOf_dotGeneral {A K B : ℕ} {φ₁ φ₂ : FTy} (D : DotDims ⟨2, ![A, K]⟩ ⟨2, ![K, B]⟩ ⟨2, ![A, B]⟩) (hD : D = DotDims.plain A K B)
    (prec : Option ContractPrecision) (sched : HostSchedule) (lhs : FVec Ideal ⟨2, ![A, K]⟩ φ₁) (rhs : FVec Ideal ⟨2, ![K, B]⟩ φ₂) (p : Fin A) :
    rowOf (FloatOps.dotGeneral D prec sched lhs rhs) p = fun j => ∑ i, rowOf lhs p i * mat rhs i j := by
  subst hD
  funext j
  show FloatOps.dotGeneral (DotDims.plain A K B) prec sched lhs rhs (ix2 p j) = ∑ k : Fin K, lhs (ix2 p k) * rhs (ix2 k j)
  rw [Ideal.dotGeneral_apply, ← Equiv.sum_comp (contrEquiv1 (DotDims.plain A K B) K rfl rfl).symm]
  refine sum_congr rfl fun k _ => ?_
  rw [plain_lhsIdx, plain_rhsIdx]

/-- A maximum with a value that is zero everywhere is the rectifier of the row. -/
theorem rowOf_max_zero {A n : ℕ} (v z : (⟨2, ![A, n]⟩ : Shape).Idx → EReal) (hz : ∀ i, z i = 0) (p : Fin A) :
    rowOf (fun i => max (v i) (z i)) p = fun j => max (rowOf v p j) 0 := by
  funext j
  show max (v (ix2 p j)) (z (ix2 p j)) = max (v (ix2 p j)) 0
  rw [hz]

/-- A kernel's maximum with the splat of a scalar that is zero: the rectifier of the row. -/
theorem rowOf_max_splat {A n : ℕ} {φ : FTy} (v : FVec Ideal ⟨2, ![A, n]⟩ φ) (z : Ideal φ) (hz : z = (0 : EReal)) (p : Fin A) :
    rowOf (maximumf v (broadcast ⟨2, ![A, n]⟩ z)) p = fun j => max (rowOf v p j) 0 :=
  rowOf_max_zero v (broadcast ⟨2, ![A, n]⟩ z) (fun _ => hz) p

/-- The host's maximum with a scalar zero constant broadcast to the shape: the same. -/
theorem rowOf_max_host {A n : ℕ} (v : FVec Ideal ⟨2, ![A, n]⟩ .f32)
    (hb : (⟨0, ![]⟩ : Shape).BroadcastsInDim ⟨2, ![A, n]⟩ (![] : Fin 0 → Fin 2)) (p : Fin A) :
    rowOf (maximumf v (broadcastInDim ⟨2, ![A, n]⟩ ![] hb (constant (F := Ideal) ⟨0, ![]⟩ .f32 0x00000000#32))) p
      = fun j => max (rowOf v p j) 0 :=
  rowOf_max_zero v _ (fun i => by
    rw [broadcastInDim_apply ![] hb _ i ix0 (fun a => a.elim0)]
    exact Ideal.ofBits_zero_f32) p

/-- A change of float format changes nothing. -/
theorem rowOf_truncf {A n : ℕ} {φ ψ : FTy} (v : FVec Ideal ⟨2, ![A, n]⟩ φ) (h : ψ.bits < φ.bits) (p : Fin A) :
    rowOf (truncf ψ v h : FVec Ideal ⟨2, ![A, n]⟩ ψ) p = rowOf v p := rfl

/-- A slice of `n` columns from column `o` on takes those columns of the row. -/
theorem rowOf_slice {A N n : ℕ} (o : ℕ) (ho : o + n ≤ N) (X : (⟨2, ![A, N]⟩ : Shape).Idx → EReal)
    (h : (⟨2, ![A, N]⟩ : Shape).Slices ![0, o] ⟨2, ![A, n]⟩) (p : Fin A) :
    rowOf (extractStridedSlice ⟨2, ![A, n]⟩ ![0, o] X h) p = fun k => rowOf X p ⟨o + k.val, by have := k.isLt; omega⟩ := by
  funext k
  exact extractStridedSlice_apply ![0, o] X h (ix2 p k) (ix2 p ⟨o + k.val, by have := k.isLt; omega⟩) (fun a => by
    match a with
    | ⟨0, _⟩ => show p.val = 0 + p.val; omega
    | ⟨1, _⟩ => rfl)

/-- A slice of the first `n` columns. -/
theorem rowOf_slice_front {A N n : ℕ} (ho : n ≤ N) (X : (⟨2, ![A, N]⟩ : Shape).Idx → EReal)
    (h : (⟨2, ![A, N]⟩ : Shape).Slices ![0, 0] ⟨2, ![A, n]⟩) (p : Fin A) :
    rowOf (extractStridedSlice ⟨2, ![A, n]⟩ ![0, 0] X h) p = fun k => rowOf X p ⟨k.val, by have := k.isLt; omega⟩ := by
  rw [rowOf_slice 0 (by omega)]
  funext k
  exact congrArg (fun q => X (ix2 p q)) (Fin.ext (Nat.zero_add _))

/-- Two matrices set side by side: the first's row, then the second's. -/
theorem rowOf_beside {A n₁ n₂ N : ℕ} (x₁ : (⟨2, ![A, n₁]⟩ : Shape).Idx → EReal) (x₂ : (⟨2, ![A, n₂]⟩ : Shape).Idx → EReal)
    (h : Shape.Concatenates [(⟨2, ![A, n₁]⟩ : Shape), ⟨2, ![A, n₂]⟩] ⟨2, ![A, N]⟩ 1) (hN : n₁ + n₂ = N) (p : Fin A) :
    rowOf (concatenate ⟨2, ![A, N]⟩ 1 [⟨⟨2, ![A, n₁]⟩, x₁⟩, ⟨⟨2, ![A, n₂]⟩, x₂⟩] h) p
      = fun k => if hk : k.val < n₁ then rowOf x₁ p ⟨k.val, hk⟩ else rowOf x₂ p ⟨k.val - n₁, by have := k.isLt; omega⟩ := by
  funext k
  by_cases hk : k.val < n₁
  · rw [dif_pos hk]
    exact concatenate_pair_apply_left 1 x₁ x₂ h (ix2 p k) rfl (ix2 p ⟨k.val, hk⟩) (fun b => by
      match b with
      | ⟨0, _⟩ => rfl
      | ⟨1, _⟩ => rfl)
  · rw [dif_neg hk]
    exact concatenate_pair_apply_right 1 x₁ x₂ h (ix2 p k) rfl rfl (ix2 p ⟨k.val - n₁, by have := k.isLt; omega⟩) (fun b hb => by
      match b with
      | ⟨0, _⟩ => rfl
      | ⟨1, _⟩ => exact absurd rfl hb) (by show k.val - n₁ + n₁ = k.val; omega)

end RowRead

end
-- ==== Proof.KernelHost.lean ====
/-
  What the host prepares for the kernel, read at coordinates at the ideal values.

  Before the kernel runs, the host computes the three modulations (the latent rows times each transposed modulation
  matrix, plus its bias) and cuts each in two, transposes the three weight matrices, and lays the points of the two
  grids one after the other as the rows of one [143360, 3] matrix. Each array the kernel's windows read is identified
  here with the corresponding piece of the specification: a half of a modulation, a transposed weight matrix, or a
  point of the two grids taken one after the other.
-/
import Idealize.ShloMosaic.Lib.ValueLayout
import Idealize.ShloMosaic.Lib.Pipeline.Value
import Idealize.ShloMosaic.Lib.ValueIdx
import Idealize.ShloMosaic.PureOps.Ideal.Laws
import Idealize.ShloMosaic.Lib.StableHlo.Run
import proofs.«137301_j13537736917463_2_alg».proof.Proof.Gen.KernelIdeal.Frame
import proofs.«137301_j13537736917463_2_alg».proof.Proof.LibRowRead
import proofs.«137301_j13537736917463_2_alg».proof.Proof.Spec

noncomputable section

namespace Cert.KernelIdeal.HostValue

open Cert.KernelIdeal Cert.KernelIdeal.Gen Idealize.ShloMosaic Idealize.ShloMosaic.TcCoe Idealize.SL.Sem Idealize.ShloMosaic.ValueIdx Cert.ModNet

/-- A modulation as the host computes it — the latent rows times the transposed modulation matrix, plus the bias
    spread over the batch rows — at (b, j): `(Σ_k z(b,k) · M(j,k)) + mb(j)`. -/
theorem mod_at {J : ℕ} (D : DotDims ⟨2, ![8, 128]⟩ ⟨2, ![128, J]⟩ ⟨2, ![8, J]⟩) (hD : D = DotDims.plain 8 128 J)
    (ht : (⟨2, ![J, 128]⟩ : Shape).Transposes [1, 0] ⟨2, ![128, J]⟩)
    (h1 : (⟨1, ![J]⟩ : Shape).BroadcastsInDim ⟨2, ![1, J]⟩ ![1])
    (h2 : (⟨2, ![1, J]⟩ : Shape).BroadcastsInDim ⟨2, ![8, J]⟩ ![0, 1])
    (z : FVec Ideal ⟨2, ![8, 128]⟩ .f32) (M : FVec Ideal ⟨2, ![J, 128]⟩ .f32) (mb : FVec Ideal ⟨1, ![J]⟩ .f32)
    (b : Fin 8) (j : Fin J) :
    addf (Host.dotGeneral D none z (transpose ⟨2, ![128, J]⟩ [1, 0] M ht))
        (broadcastInDim ⟨2, ![8, J]⟩ ![0, 1] h2 (broadcastInDim ⟨2, ![1, J]⟩ ![1] h1 mb)) (ix2 b j)
      = modv z M mb b j := by
  show FloatOps.dotGeneral D none .single z (transpose ⟨2, ![128, J]⟩ [1, 0] M ht) (ix2 b j)
      + broadcastInDim ⟨2, ![8, J]⟩ ![0, 1] h2 (broadcastInDim ⟨2, ![1, J]⟩ ![1] h1 mb) (ix2 b j) = _
  have e1 := congrFun (RowRead.rowOf_dotGeneral D hD none .single z (transpose ⟨2, ![128, J]⟩ [1, 0] M ht) b) j
  have e2 : broadcastInDim ⟨2, ![8, J]⟩ ![0, 1] h2 (broadcastInDim ⟨2, ![1, J]⟩ ![1] h1 mb) (ix2 b j) = mb (ix1 j) := by
    rw [broadcastInDim_apply ![0, 1] h2 _ (ix2 b j) (ix2 (0 : Fin 1) j) (fun a => by
      match a with
      | ⟨0, _⟩ => show (0 : ℕ) = if (1 : ℕ) = 1 then 0 else b.val; rw [if_pos rfl]
      | ⟨1, _⟩ =>
        show j.val = if J = 1 then 0 else j.val
        split
        · have := j.isLt; omega
        · rfl),
      broadcastInDim_apply ![1] h1 mb (ix2 (0 : Fin 1) j) (ix1 j) (fun a => by
      match a with
      | ⟨0, _⟩ =>
        show j.val = if J = 1 then 0 else j.val
        split
        · have := j.isLt; omega
        · rfl)]
  refine (congrArg₂ (· + ·) e1 e2).trans ?_
  unfold modv
  refine congrArg (· + mb (ix1 j)) (Finset.sum_congr rfl fun k _ => ?_)
  show z (ix2 b k) * transpose ⟨2, ![128, J]⟩ [1, 0] M ht (ix2 k j) = _
  rw [transpose_ix2_apply M ht k j]

variable (m : (ℓ : Loc nD τ sig) → Buf (Elt Ideal) ℓ) (c : Dev nD)

/-- The argument arrays as launched. -/
abbrev aZ : FVec Ideal S8x128 .f32 := m ((c : Thread nD τ).loc main_arg0)
abbrev aW0 : FVec Ideal S128x3 .f32 := m ((c : Thread nD τ).loc main_arg3)
abbrev aB0 : FVec Ideal S128 .f32 := m ((c : Thread nD τ).loc main_arg4)
abbrev aM0 : FVec Ideal S256x128 .f32 := m ((c : Thread nD τ).loc main_arg5)
abbrev aMb0 : FVec Ideal S256 .f32 := m ((c : Thread nD τ).loc main_arg6)
abbrev aW1 : FVec Ideal S128x128 .f32 := m ((c : Thread nD τ).loc main_arg7)
abbrev aB1 : FVec Ideal S128 .f32 := m ((c : Thread nD τ).loc main_arg8)
abbrev aM1 : FVec Ideal S256x128 .f32 := m ((c : Thread nD τ).loc main_arg9)
abbrev aMb1 : FVec Ideal S256 .f32 := m ((c : Thread nD τ).loc main_arg10)
abbrev aW2 : FVec Ideal S4x128 .f32 := m ((c : Thread nD τ).loc main_arg11)
abbrev aB2 : FVec Ideal S4 .f32 := m ((c : Thread nD τ).loc main_arg12)
abbrev aM2 : FVec Ideal S8x128 .f32 := m ((c : Thread nD τ).loc main_arg13)
abbrev aMb2 : FVec Ideal S8 .f32 := m ((c : Thread nD τ).loc main_arg14)

theorem V_v5 : (V m c main_v5 : S8x128.Idx → EReal)
    = extractStridedSlice S8x128 ![0, 0] (addf (Host.dotGeneral (F := Ideal) dot_S8x128_S128x256_S8x256_1_0_0_1_n_n none (aZ m c)
          (transpose S128x256 [1, 0] (aM0 m c) transposes_S256x128_S128x256_1_0))
        (broadcastInDim S8x256 ![0, 1] bcast_S1x256_S8x256_0_1 (broadcastInDim S1x256 ![1] bcast_S256_S1x256_1 (aMb0 m c))))
        slices_S8x256_S8x128_0_0 := by
  dsimp only [V, hostOps0]
  after_results

theorem V_v6 : (V m c main_v6 : S8x128.Idx → EReal)
    = extractStridedSlice S8x128 ![0, 128] (addf (Host.dotGeneral (F := Ideal) dot_S8x128_S128x256_S8x256_1_0_0_1_n_n none (aZ m c)
          (transpose S128x256 [1, 0] (aM0 m c) transposes_S256x128_S128x256_1_0))
        (broadcastInDim S8x256 ![0, 1] bcast_S1x256_S8x256_0_1 (broadcastInDim S1x256 ![1] bcast_S256_S1x256_1 (aMb0 m c))))
        slices_S8x256_S8x128_0_128 := by
  dsimp only [V, hostOps0]
  after_results

/-- The first scale block: the first half of the first modulation. -/
theorem s0_at (b : Fin 8) (o : Fin 128) :
    (V m c main_v5 : S8x128.Idx → EReal) (ix2 b o) = lo (O := 128) rfl (modv (aZ m c) (aM0 m c) (aMb0 m c) b) o := by
  rw [V_v5, slice2_axis1_apply 0 _ slices_S8x256_S8x128_0_0 b o ⟨o.val, by have := o.isLt; omega⟩ (by simp),
    mod_at dot_S8x128_S128x256_S8x256_1_0_0_1_n_n rfl]
  rfl

/-- The first shift block: the second half of the first modulation. -/
theorem sh0_at (b : Fin 8) (o : Fin 128) :
    (V m c main_v6 : S8x128.Idx → EReal) (ix2 b o) = hi (O := 128) rfl (modv (aZ m c) (aM0 m c) (aMb0 m c) b) o := by
  rw [V_v6, slice2_axis1_apply 128 _ slices_S8x256_S8x128_0_128 b o ⟨128 + o.val, by have := o.isLt; omega⟩ rfl,
    mod_at dot_S8x128_S128x256_S8x256_1_0_0_1_n_n rfl]
  rfl

theorem V_v12 : (V m c main_v12 : S8x128.Idx → EReal)
    = extractStridedSlice S8x128 ![0, 0] (addf (Host.dotGeneral (F := Ideal) dot_S8x128_S128x256_S8x256_1_0_0_1_n_n none (aZ m c)
          (transpose S128x256 [1, 0] (aM1 m c) transposes_S256x128_S128x256_1_0))
        (broadcastInDim S8x256 ![0, 1] bcast_S1x256_S8x256_0_1 (broadcastInDim S1x256 ![1] bcast_S256_S1x256_1 (aMb1 m c))))
        slices_S8x256_S8x128_0_0 := by
  dsimp only [V, hostOps0]
  after_results

theorem V_v13 : (V m c main_v13 : S8x128.Idx → EReal)
    = extractStridedSlice S8x128 ![0, 128] (addf (Host.dotGeneral (F := Ideal) dot_S8x128_S128x256_S8x256_1_0_0_1_n_n none (aZ m c)
          (transpose S128x256 [1, 0] (aM1 m c) transposes_S256x128_S128x256_1_0))
        (broadcastInDim S8x256 ![0, 1] bcast_S1x256_S8x256_0_1 (broadcastInDim S1x256 ![1] bcast_S256_S1x256_1 (aMb1 m c))))
        slices_S8x256_S8x128_0_128 := by
  dsimp only [V, hostOps0]
  after_results

/-- The second scale block: the first half of the second modulation. -/
theorem s1_at (b : Fin 8) (o : Fin 128) :
    (V m c main_v12 : S8x128.Idx → EReal) (ix2 b o) = lo (O := 128) rfl (modv (aZ m c) (aM1 m c) (aMb1 m c) b) o := by
  rw [V_v12, slice2_axis1_apply 0 _ slices_S8x256_S8x128_0_0 b o ⟨o.val, by have := o.isLt; omega⟩ (by simp),
    mod_at dot_S8x128_S128x256_S8x256_1_0_0_1_n_n rfl]
  rfl

/-- The second shift block: the second half of the second modulation. -/
theorem sh1_at (b : Fin 8) (o : Fin 128) :
    (V m c main_v13 : S8x128.Idx → EReal) (ix2 b o) = hi (O := 128) rfl (modv (aZ m c) (aM1 m c) (aMb1 m c) b) o := by
  rw [V_v13, slice2_axis1_apply 128 _ slices_S8x256_S8x128_0_128 b o ⟨128 + o.val, by have := o.isLt; omega⟩ rfl,
    mod_at dot_S8x128_S128x256_S8x256_1_0_0_1_n_n rfl]
  rfl

theorem V_v19 : (V m c main_v19 : S8x4.Idx → EReal)
    = extractStridedSlice S8x4 ![0, 0] (addf (Host.dotGeneral (F := Ideal) dot_S8x128_S128x8_S8x8_1_0_0_1_n_n none (aZ m c)
          (transpose S128x8 [1, 0] (aM2 m c) transposes_S8x128_S128x8_1_0))
        (broadcastInDim S8x8 ![0, 1] bcast_S1x8_S8x8_0_1 (broadcastInDim S1x8 ![1] bcast_S8_S1x8_1 (aMb2 m c))))
        slices_S8x8_S8x4_0_0 := by
  dsimp only [V, hostOps0]
  after_results

theorem V_v20 : (V m c main_v20 : S8x4.Idx → EReal)
    = extractStridedSlice S8x4 ![0, 4] (addf (Host.dotGeneral (F := Ideal) dot_S8x128_S128x8_S8x8_1_0_0_1_n_n none (aZ m c)
          (transpose S128x8 [1, 0] (aM2 m c) transposes_S8x128_S128x8_1_0))
        (broadcastInDim S8x8 ![0, 1] bcast_S1x8_S8x8_0_1 (broadcastInDim S1x8 ![1] bcast_S8_S1x8_1 (aMb2 m c))))
        slices_S8x8_S8x4_0_4 := by
  dsimp only [V, hostOps0]
  after_results

/-- The third scale block: the first half of the third modulation. -/
theorem s2_at (b : Fin 8) (o : Fin 4) :
    (V m c main_v19 : S8x4.Idx → EReal) (ix2 b o) = lo (O := 4) rfl (modv (aZ m c) (aM2 m c) (aMb2 m c) b) o := by
  rw [V_v19, slice2_axis1_apply 0 _ slices_S8x8_S8x4_0_0 b o ⟨o.val, by have := o.isLt; omega⟩ (by simp),
    mod_at dot_S8x128_S128x8_S8x8_1_0_0_1_n_n rfl]
  rfl

/-- The third shift block: the second half of the third modulation. -/
theorem sh2_at (b : Fin 8) (o : Fin 4) :
    (V m c main_v20 : S8x4.Idx → EReal) (ix2 b o) = hi (O := 4) rfl (modv (aZ m c) (aM2 m c) (aMb2 m c) b) o := by
  rw [V_v20, slice2_axis1_apply 4 _ slices_S8x8_S8x4_0_4 b o ⟨4 + o.val, by have := o.isLt; omega⟩ rfl,
    mod_at dot_S8x128_S128x8_S8x8_1_0_0_1_n_n rfl]
  rfl

theorem V_v21 : (V m c main_v21 : S3x128.Idx → EReal) = transpose S3x128 [1, 0] (aW0 m c) transposes_S128x3_S3x128_1_0 := by
  dsimp only [V, hostOps0]
  after_results

/-- The first weight block is the first weight matrix transposed. -/
theorem W0T_at (k : Fin 3) (o : Fin 128) :
    (V m c main_v21 : S3x128.Idx → EReal) (ix2 k o) = aW0 m c (ix2 o k) := by
  rw [V_v21]
  exact transpose_ix2_apply (aW0 m c) transposes_S128x3_S3x128_1_0 k o

theorem V_v22 : (V m c main_v22 : S128x128.Idx → EReal) = transpose S128x128 [1, 0] (aW1 m c) transposes_S128x128_S128x128_1_0 := by
  dsimp only [V, hostOps0]
  after_results

/-- The second weight block is the second weight matrix transposed. -/
theorem W1T_at (k : Fin 128) (o : Fin 128) :
    (V m c main_v22 : S128x128.Idx → EReal) (ix2 k o) = aW1 m c (ix2 o k) := by
  rw [V_v22]
  exact transpose_ix2_apply (aW1 m c) transposes_S128x128_S128x128_1_0 k o

theorem V_v23 : (V m c main_v23 : S128x4.Idx → EReal) = transpose S128x4 [1, 0] (aW2 m c) transposes_S4x128_S128x4_1_0 := by
  dsimp only [V, hostOps0]
  after_results

/-- The third weight block is the third weight matrix transposed. -/
theorem W2T_at (k : Fin 128) (o : Fin 4) :
    (V m c main_v23 : S128x4.Idx → EReal) (ix2 k o) = aW2 m c (ix2 o k) := by
  rw [V_v23]
  exact transpose_ix2_apply (aW2 m c) transposes_S4x128_S128x4_1_0 k o

end Cert.KernelIdeal.HostValue

end
-- ==== Proof.KernelPoints.lean ====
/-
  The matrix of points the kernel reads, at a row.

  The host reshapes each grid to a matrix with one row of three coordinates per point, in row-major order, and sets
  the second grid's rows after the first's: row N of the [143360, 3] matrix is point N of the first grid when
  N < 32768 and point N − 32768 of the second otherwise.
-/
import Idealize.ShloMosaic.Lib.Pipeline.Value
import Idealize.ShloMosaic.Lib.ValueIdx
import Idealize.ShloMosaic.Lib.StableHlo.Run
import proofs.«137301_j13537736917463_2_alg».proof.Proof.Gen.KernelIdeal.Frame
import proofs.«137301_j13537736917463_2_alg».proof.Proof.Spec

noncomputable section

namespace Cert.KernelIdeal.HostValue

open Cert.KernelIdeal Cert.KernelIdeal.Gen Idealize.ShloMosaic Idealize.ShloMosaic.TcCoe Idealize.SL.Sem Idealize.ShloMosaic.ValueIdx Cert.ModNet

variable (m : (ℓ : Loc nD τ sig) → Buf (Elt Ideal) ℓ) (c : Dev nD)

/-- The two grids as launched. -/
abbrev gX0 : FVec Ideal S32x32x32x3 .f32 := m ((c : Thread nD τ).loc main_arg1)
abbrev gX1 : FVec Ideal S48x48x48x3 .f32 := m ((c : Thread nD τ).loc main_arg2)

set_option maxHeartbeats 1000000 in
theorem V_v26 : (V m c main_v26 : S143360x3.Idx → EReal)
    = concatenate S143360x3 0 [⟨S32768x3, shapeCast S32768x3 (gX0 m c) shapeCasts_S32x32x32x3_S32768x3⟩,
        ⟨S110592x3, shapeCast S110592x3 (gX1 m c) shapeCasts_S48x48x48x3_S110592x3⟩] concatenates_S32768x3_S110592x3_S143360x3_d0 := by
  dsimp only [V, hostOps0]
  after_results_simp
  try rfl

/-- Row `N` of the matrix of points is point `N` of the two grids taken one after the other. -/
theorem xflat_at (N : Fin 143360) (d : Fin 3) :
    (V m c main_v26 : S143360x3.Idx → EReal) (ix2 N d) = point (gX0 m c) (gX1 m c) N d := by
  rw [V_v26]
  unfold point
  by_cases hN : N.val < 32768
  · rw [dif_pos hN]
    exact concatenate_pair_apply_left (t := S143360x3) (s₁ := S32768x3) (s₂ := S110592x3) (0 : Fin 2)
      (shapeCast S32768x3 (gX0 m c) shapeCasts_S32x32x32x3_S32768x3) (shapeCast S110592x3 (gX1 m c) shapeCasts_S48x48x48x3_S110592x3)
      concatenates_S32768x3_S110592x3_S143360x3_d0 (ix2 N d) rfl
      (ix2 (⟨N.val, hN⟩ : Fin 32768) d) (fun a => by
        match a with
        | ⟨0, _⟩ => rfl
        | ⟨1, _⟩ => rfl)
  · rw [dif_neg hN]
    exact concatenate_pair_apply_right (t := S143360x3) (s₁ := S32768x3) (s₂ := S110592x3) (0 : Fin 2)
      (shapeCast S32768x3 (gX0 m c) shapeCasts_S32x32x32x3_S32768x3) (shapeCast S110592x3 (gX1 m c) shapeCasts_S48x48x48x3_S110592x3)
      concatenates_S32768x3_S110592x3_S143360x3_d0 (ix2 N d) rfl rfl
      (ix2 (⟨N.val - 32768, by have := N.isLt; omega⟩ : Fin 110592) d) (fun a ha => by
        match a with
        | ⟨0, _⟩ => exact absurd rfl ha
        | ⟨1, _⟩ => rfl) (by show N.val - 32768 + 32768 = N.val; omega)

end Cert.KernelIdeal.HostValue

end
-- ==== Proof.KernelBlocks.lean ====
/-
  The windows' blocks read at coordinates.

  The grid is one axis of 140 points. At point `t` the window on the [143360, 3] array of grid rows holds rows
  `1024·t … 1024·t + 1023`; the output window on the [8, 573440] result holds columns `4096·t … 4096·t + 4095` of all
  eight rows; every other window holds its whole array at every point. A block's coordinate on an axis is the
  window's block index there times the block's size plus the coordinate inside the block, so each reading is one
  line of arithmetic per axis once the block indices are known over the grid. Every column of the result lies in
  the block of the point `column / 4096`, and every point writes its block back.
-/
import proofs.«137301_j13537736917463_2_alg».proof.Proof.Gen.KernelIdeal.Value
import Idealize.ShloMosaic.Lib.ValueIdx

noncomputable section

namespace Cert.KernelIdeal.ArrValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- The block indices of the fourteen windows at every point of the grid: the output window moves along the
    columns and the grid-row window along the rows, one block per point; every other window stays at block zero. -/
theorem idx_facts : ∀ t : Fin cfg0.N, win0_13.index t (0 : Fin 2) = 0
    ∧ win0_13.index t (1 : Fin 2) = t.val
    ∧ win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0 :=
  (by decide +kernel : ∀ t : Fin grid0.N, _)

/-- The grid-row window at point `t`: row `r` of the block is row `1024·t + r` of the array. -/
theorem blk0 (t : Fin cfg0.N) (r : Fin 1024) (d : Fin 3) :
    iblk m c 0 t (ix2 r d) = (V m c main_v26 : S143360x3.Idx → EReal)
      (ix2 (⟨t.val * 1024 + r.val, by have ht : t.val < 140 := t.isLt; have := r.isLt; omega⟩ : Fin 143360) d) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 0).blk t).view.emb (ix2 r d)
      = ix2 (⟨t.val * 1024 + r.val, by have ht : t.val < 140 := t.isLt; have := r.isLt; omega⟩ : Fin 143360) d := by
    funext a; apply Fin.ext
    match a with
    | ⟨0, _⟩ => show win0_0.index t (0 : Fin 2) * 1024 + 1 * r.val = t.val * 1024 + r.val; omega
    | ⟨1, _⟩ => show win0_0.index t (1 : Fin 2) * 3 + 1 * d.val = d.val; omega
  show (V m c main_v26 : S143360x3.Idx → EReal) (((cfg0.win 0).blk t).view.emb (ix2 r d)) = _
  rw [h]

/-- Window 1 holds its whole array at every point. -/
theorem blk1 (t : Fin cfg0.N) (b : Fin 8) (o : Fin 128) :
    iblk m c 1 t (ix2 b o) = (V m c main_v5 : S8x128.Idx → EReal) (ix2 b o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 1).blk t).view.emb (ix2 b o) = ix2 b o := by
    funext a; apply Fin.ext
    match a with
    | ⟨0, _⟩ => show win0_1.index t (0 : Fin 2) * 8 + 1 * b.val = b.val; omega
    | ⟨1, _⟩ => show win0_1.index t (1 : Fin 2) * 128 + 1 * o.val = o.val; omega
  show (V m c main_v5 : S8x128.Idx → EReal) (((cfg0.win 1).blk t).view.emb (ix2 b o)) = _
  rw [h]

/-- Window 2 holds its whole array at every point. -/
theorem blk2 (t : Fin cfg0.N) (b : Fin 8) (o : Fin 128) :
    iblk m c 2 t (ix2 b o) = (V m c main_v6 : S8x128.Idx → EReal) (ix2 b o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 2).blk t).view.emb (ix2 b o) = ix2 b o := by
    funext a; apply Fin.ext
    match a with
    | ⟨0, _⟩ => show win0_2.index t (0 : Fin 2) * 8 + 1 * b.val = b.val; omega
    | ⟨1, _⟩ => show win0_2.index t (1 : Fin 2) * 128 + 1 * o.val = o.val; omega
  show (V m c main_v6 : S8x128.Idx → EReal) (((cfg0.win 2).blk t).view.emb (ix2 b o)) = _
  rw [h]

/-- Window 3 holds its whole array at every point. -/
theorem blk3 (t : Fin cfg0.N) (b : Fin 8) (o : Fin 128) :
    iblk m c 3 t (ix2 b o) = (V m c main_v12 : S8x128.Idx → EReal) (ix2 b o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 3).blk t).view.emb (ix2 b o) = ix2 b o := by
    funext a; apply Fin.ext
    match a with
    | ⟨0, _⟩ => show win0_3.index t (0 : Fin 2) * 8 + 1 * b.val = b.val; omega
    | ⟨1, _⟩ => show win0_3.index t (1 : Fin 2) * 128 + 1 * o.val = o.val; omega
  show (V m c main_v12 : S8x128.Idx → EReal) (((cfg0.win 3).blk t).view.emb (ix2 b o)) = _
  rw [h]

/-- Window 4 holds its whole array at every point. -/
theorem blk4 (t : Fin cfg0.N) (b : Fin 8) (o : Fin 128) :
    iblk m c 4 t (ix2 b o) = (V m c main_v13 : S8x128.Idx → EReal) (ix2 b o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 4).blk t).view.emb (ix2 b o) = ix2 b o := by
    funext a; apply Fin.ext
    match a with
    | ⟨0, _⟩ => show win0_4.index t (0 : Fin 2) * 8 + 1 * b.val = b.val; omega
    | ⟨1, _⟩ => show win0_4.index t (1 : Fin 2) * 128 + 1 * o.val = o.val; omega
  show (V m c main_v13 : S8x128.Idx → EReal) (((cfg0.win 4).blk t).view.emb (ix2 b o)) = _
  rw [h]

/-- Window 5 holds its whole array at every point. -/
theorem blk5 (t : Fin cfg0.N) (b : Fin 8) (o : Fin 4) :
    iblk m c 5 t (ix2 b o) = (V m c main_v19 : S8x4.Idx → EReal) (ix2 b o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 5).blk t).view.emb (ix2 b o) = ix2 b o := by
    funext a; apply Fin.ext
    match a with
    | ⟨0, _⟩ => show win0_5.index t (0 : Fin 2) * 8 + 1 * b.val = b.val; omega
    | ⟨1, _⟩ => show win0_5.index t (1 : Fin 2) * 4 + 1 * o.val = o.val; omega
  show (V m c main_v19 : S8x4.Idx → EReal) (((cfg0.win 5).blk t).view.emb (ix2 b o)) = _
  rw [h]

/-- Window 6 holds its whole array at every point. -/
theorem blk6 (t : Fin cfg0.N) (b : Fin 8) (o : Fin 4) :
    iblk m c 6 t (ix2 b o) = (V m c main_v20 : S8x4.Idx → EReal) (ix2 b o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 6).blk t).view.emb (ix2 b o) = ix2 b o := by
    funext a; apply Fin.ext
    match a with
    | ⟨0, _⟩ => show win0_6.index t (0 : Fin 2) * 8 + 1 * b.val = b.val; omega
    | ⟨1, _⟩ => show win0_6.index t (1 : Fin 2) * 4 + 1 * o.val = o.val; omega
  show (V m c main_v20 : S8x4.Idx → EReal) (((cfg0.win 6).blk t).view.emb (ix2 b o)) = _
  rw [h]

/-- Window 7 holds its whole array at every point. -/
theorem blk7 (t : Fin cfg0.N) (k : Fin 3) (o : Fin 128) :
    iblk m c 7 t (ix2 k o) = (V m c main_v21 : S3x128.Idx → EReal) (ix2 k o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 7).blk t).view.emb (ix2 k o) = ix2 k o := by
    funext a; apply Fin.ext
    match a with
    | ⟨0, _⟩ => show win0_7.index t (0 : Fin 2) * 3 + 1 * k.val = k.val; omega
    | ⟨1, _⟩ => show win0_7.index t (1 : Fin 2) * 128 + 1 * o.val = o.val; omega
  show (V m c main_v21 : S3x128.Idx → EReal) (((cfg0.win 7).blk t).view.emb (ix2 k o)) = _
  rw [h]

/-- Window 8 holds its whole array at every point. -/
theorem blk8 (t : Fin cfg0.N) (o : Fin 128) :
    iblk m c 8 t (ix1 o) = (V m c main_arg4 : S128.Idx → EReal) (ix1 o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 8).blk t).view.emb (ix1 o) = ix1 o := by
    funext a; apply Fin.ext
    match a with
    | ⟨0, _⟩ => show win0_8.index t (0 : Fin 1) * 128 + 1 * o.val = o.val; omega
  show (V m c main_arg4 : S128.Idx → EReal) (((cfg0.win 8).blk t).view.emb (ix1 o)) = _
  rw [h]

/-- Window 9 holds its whole array at every point. -/
theorem blk9 (t : Fin cfg0.N) (k : Fin 128) (o : Fin 128) :
    iblk m c 9 t (ix2 k o) = (V m c main_v22 : S128x128.Idx → EReal) (ix2 k o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 9).blk t).view.emb (ix2 k o) = ix2 k o := by
    funext a; apply Fin.ext
    match a with
    | ⟨0, _⟩ => show win0_9.index t (0 : Fin 2) * 128 + 1 * k.val = k.val; omega
    | ⟨1, _⟩ => show win0_9.index t (1 : Fin 2) * 128 + 1 * o.val = o.val; omega
  show (V m c main_v22 : S128x128.Idx → EReal) (((cfg0.win 9).blk t).view.emb (ix2 k o)) = _
  rw [h]

/-- Window 10 holds its whole array at every point. -/
theorem blk10 (t : Fin cfg0.N) (o : Fin 128) :
    iblk m c 10 t (ix1 o) = (V m c main_arg8 : S128.Idx → EReal) (ix1 o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 10).blk t).view.emb (ix1 o) = ix1 o := by
    funext a; apply Fin.ext
    match a with
    | ⟨0, _⟩ => show win0_10.index t (0 : Fin 1) * 128 + 1 * o.val = o.val; omega
  show (V m c main_arg8 : S128.Idx → EReal) (((cfg0.win 10).blk t).view.emb (ix1 o)) = _
  rw [h]

/-- Window 11 holds its whole array at every point. -/
theorem blk11 (t : Fin cfg0.N) (k : Fin 128) (o : Fin 4) :
    iblk m c 11 t (ix2 k o) = (V m c main_v23 : S128x4.Idx → EReal) (ix2 k o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 11).blk t).view.emb (ix2 k o) = ix2 k o := by
    funext a; apply Fin.ext
    match a with
    | ⟨0, _⟩ => show win0_11.index t (0 : Fin 2) * 128 + 1 * k.val = k.val; omega
    | ⟨1, _⟩ => show win0_11.index t (1 : Fin 2) * 4 + 1 * o.val = o.val; omega
  show (V m c main_v23 : S128x4.Idx → EReal) (((cfg0.win 11).blk t).view.emb (ix2 k o)) = _
  rw [h]

/-- Window 12 holds its whole array at every point. -/
theorem blk12 (t : Fin cfg0.N) (o : Fin 4) :
    iblk m c 12 t (ix1 o) = (V m c main_arg12 : S4.Idx → EReal) (ix1 o) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  have h : ((cfg0.win 12).blk t).view.emb (ix1 o) = ix1 o := by
    funext a; apply Fin.ext
    match a with
    | ⟨0, _⟩ => show win0_12.index t (0 : Fin 1) * 4 + 1 * o.val = o.val; omega
  show (V m c main_arg12 : S4.Idx → EReal) (((cfg0.win 12).blk t).view.emb (ix1 o)) = _
  rw [h]

/-- The output window at point `t`: column `q` of the block is column `4096·t + q` of the result. -/
theorem emb13 (t : Fin cfg0.N) (b : Fin 8) (q : Fin 4096) :
    ((cfg0.win 13).blk t).view.emb (ix2 b q)
      = ix2 b (⟨t.val * 4096 + q.val, by have ht : t.val < 140 := t.isLt; have := q.isLt; omega⟩ : Fin 573440) := by
  obtain ⟨h13_0, h13_1, h0_0, h0_1, h1_0, h1_1, h2_0, h2_1, h3_0, h3_1, h4_0, h4_1, h5_0, h5_1, h6_0, h6_1, h7_0, h7_1, h8_0, h9_0, h9_1, h10_0, h11_0, h11_1, h12_0⟩ := idx_facts t
  funext a; apply Fin.ext
  match a with
  | ⟨0, _⟩ => show win0_13.index t (0 : Fin 2) * 8 + 1 * b.val = b.val; omega
  | ⟨1, _⟩ => show win0_13.index t (1 : Fin 2) * 4096 + 1 * q.val = t.val * 4096 + q.val; omega

/-- An index of the result is in point `t`'s block iff each coordinate is in the block's range on its axis. -/
theorem mem_blk13 (t : Fin cfg0.N) (i : S8x573440.Idx) :
    i ∈ ((cfg0.win 13).blk t).view.set ↔ ∀ a : Fin 2, win0_13.index t a * S8x4096.size a ≤ (i a).val
      ∧ (i a).val < win0_13.index t a * S8x4096.size a + S8x4096.size a := by
  show i ∈ ((View.whole main_v27).slice (win0_13.rect t)).set ↔ _
  rw [View.set_slice_whole, Rect.mem_set_unit]
  exact Iff.rfl

/-- Every index of the result is in the block of a point that writes back: the point `column / 4096`. -/
theorem cover13 : ∀ i : S8x573440.Idx, ∃ t : Fin cfg0.N, (cfg0.win 13).flush t = true ∧ i ∈ ((cfg0.win 13).blk t).view.set := by
  intro i
  have hi0 : (i 0).val < 8 := (i 0).isLt
  have hi1 : (i 1).val < 573440 := (i 1).isLt
  have hq : (i 1).val / 4096 < 140 := by omega
  obtain ⟨e0, e1, -⟩ := idx_facts (⟨(i 1).val / 4096, hq⟩ : Fin cfg0.N)
  have e1' : win0_13.index (⟨(i 1).val / 4096, hq⟩ : Fin cfg0.N) (1 : Fin 2) = (i 1).val / 4096 := e1
  refine ⟨⟨(i 1).val / 4096, hq⟩, flush0_13 _, ?_⟩
  rw [mem_blk13]
  intro a
  match a with
  | ⟨0, _⟩ =>
    show win0_13.index (⟨(i 1).val / 4096, hq⟩ : Fin cfg0.N) (0 : Fin 2) * 8 ≤ (i 0).val
      ∧ (i 0).val < win0_13.index (⟨(i 1).val / 4096, hq⟩ : Fin cfg0.N) (0 : Fin 2) * 8 + 8
    omega
  | ⟨1, _⟩ =>
    show win0_13.index (⟨(i 1).val / 4096, hq⟩ : Fin cfg0.N) (1 : Fin 2) * 4096 ≤ (i 1).val
      ∧ (i 1).val < win0_13.index (⟨(i 1).val / 4096, hq⟩ : Fin cfg0.N) (1 : Fin 2) * 4096 + 4096
    omega

end Cert.KernelIdeal.ArrValue

end
-- ==== Proof.KernelValue.lean ====
/-
  The kernel's result array as one function of the argument arrays.

  Grid point t writes the [8, 4096] block of columns t·4096 … t·4096 + 4095. Column t·4096 + q of batch row b is
  output q % 4 of the network on point t·1024 + q / 4 of the two grids: the tile's point q / 4 is row
  t·1024 + q / 4 of the matrix of points, and every other block the body reads is a whole array the host prepared.
  The 140 blocks tile the array, so after the run it holds the specification's function everywhere.
-/
import proofs.«137301_j13537736917463_2_alg».proof.Proof.Gen.KernelIdeal.Value
import proofs.«137301_j13537736917463_2_alg».proof.Proof.KernelTile
import proofs.«137301_j13537736917463_2_alg».proof.Proof.KernelHost
import proofs.«137301_j13537736917463_2_alg».proof.Proof.KernelPoints
import proofs.«137301_j13537736917463_2_alg».proof.Proof.KernelBlocks

noncomputable section

namespace Cert.KernelIdeal.ArrValue

open Cert.KernelIdeal Cert.KernelIdeal.Gen Idealize.ShloMosaic Idealize.ShloMosaic.TcCoe Idealize.SL.Sem Idealize.ShloMosaic.ValueIdx
open Cert.ModNet Cert.KernelIdeal.HostValue Cert.KernelIdeal.RowValue
open Idealize.ShloMosaic.Pipeline (Dat)

variable (m : (ℓ : Loc nD τ sig) → Buf (Elt Ideal) ℓ) (c : Dev nD)

/-- The specification's function of the argument arrays as launched. -/
abbrev GK : S8x573440.Idx → EReal :=
  G (aZ m c) (gX0 m c) (gX1 m c) (aW0 m c) (aB0 m c) (aM0 m c) (aMb0 m c) (aW1 m c) (aB1 m c) (aM1 m c) (aMb1 m c)
    (aW2 m c) (aB2 m c) (aM2 m c) (aMb2 m c)

theorem hz2 : (![0, 0] : Fin 2 → Nat) = fun _ => 0 := funext fun a => by fin_cases a <;> rfl

theorem hz1 : (![0] : Fin 1 → Nat) = fun _ => 0 := funext fun a => by fin_cases a; rfl

/-- What the body stores at point t, at (b, q): the specification at (b, t·4096 + q). -/
theorem tile_value (t : Fin cfg0.N) (b : Fin 8) (q : Fin 4096) :
    k0_pay1 (F := Ideal) (k0_pay2 (iblk m c 0 t) (iblk m c 7 t) (iblk m c 8 t) (iblk m c 1 t) (iblk m c 2 t) (iblk m c 9 t) (iblk m c 10 t))
        (k0_pay3 (iblk m c 3 t)) (iblk m c 4 t) (iblk m c 11 t) (iblk m c 12 t) (iblk m c 5 t) (iblk m c 6 t) (ix2 b q)
      = GK m c (ix2 b (⟨t.val * 4096 + q.val, by have ht : t.val < 140 := t.isLt; have := q.isLt; omega⟩ : Fin 573440)) := by
  have ht : t.val < 140 := t.isLt
  have hq : q.val < 4096 := q.isLt
  refine (pay_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) b
    (⟨q.val / 4, by omega⟩ : Fin 1024) (⟨q.val % 4, by omega⟩ : Fin 4) q (by show q.val = q.val / 4 * 4 + q.val % 4; omega)).trans ?_
  have hN : (⟨(t.val * 4096 + q.val) / 4, by omega⟩ : Fin 143360) = ⟨t.val * 1024 + q.val / 4, by omega⟩ :=
    Fin.ext (by show (t.val * 4096 + q.val) / 4 = t.val * 1024 + q.val / 4; omega)
  have hf : (⟨(t.val * 4096 + q.val) % 4, Nat.mod_lt _ (by decide)⟩ : Fin 4) = ⟨q.val % 4, by omega⟩ :=
    Fin.ext (by show (t.val * 4096 + q.val) % 4 = q.val % 4; omega)
  show _ = net (aZ m c) (aW0 m c) (aB0 m c) (aM0 m c) (aMb0 m c) (aW1 m c) (aB1 m c) (aM1 m c) (aMb1 m c) (aW2 m c) (aB2 m c) (aM2 m c) (aMb2 m c) b
      (point (gX0 m c) (gX1 m c) ⟨(t.val * 4096 + q.val) / 4, by omega⟩) ⟨(t.val * 4096 + q.val) % 4, Nat.mod_lt _ (by decide)⟩
  rw [hN, hf]
  refine congrFun (tileNet_eq_net _ _ _ _ _ _ _ _ _ _ _ _ _ (aZ m c) (gX0 m c) (gX1 m c) (aW0 m c) (aB0 m c) (aM0 m c) (aMb0 m c)
    (aW1 m c) (aB1 m c) (aM1 m c) (aMb1 m c) (aW2 m c) (aB2 m c) (aM2 m c) (aMb2 m c) b ⟨q.val / 4, by omega⟩
    ⟨t.val * 1024 + q.val / 4, by omega⟩ ?_ ?_ ?_ ?_ ?_ ?_ ?_ ?_ ?_ ?_ ?_ ?_ ?_) _
  · intro d; rw [blk0 m c t ⟨q.val / 4, by omega⟩ d]; exact xflat_at m c _ d
  · intro o; rw [blk1 m c t b o]; exact s0_at m c b o
  · intro o; rw [blk2 m c t b o]; exact sh0_at m c b o
  · intro o; rw [blk3 m c t b o]; exact s1_at m c b o
  · intro o; rw [blk4 m c t b o]; exact sh1_at m c b o
  · intro o; rw [blk5 m c t b o]; exact s2_at m c b o
  · intro o; rw [blk6 m c t b o]; exact sh2_at m c b o
  · intro o k; rw [blk7 m c t k o]; exact W0T_at m c k o
  · intro o k; rw [blk9 m c t k o]; exact W1T_at m c k o
  · intro o k; rw [blk11 m c t k o]; exact W2T_at m c k o
  · intro o; rw [blk8 m c t o]; exact congrFun (V_main_arg4 m c) (ix1 o)
  · intro o; rw [blk10 m c t o]; exact congrFun (V_main_arg8 m c) (ix1 o)
  · intro o; rw [blk12 m c t o]; exact congrFun (V_main_arg12 m c) (ix1 o)

/-- What point t writes back is block t of the specification's array. -/
theorem flushed_eq (t : Fin cfg0.N) :
    (dats m 0 c).flushed 13 t = ((cfg0.win 13).blk t).view.read (Elt Ideal) (GK m c) := by
  rw [Value.flushed13]
  unfold out0_13
  rw [View.canon_unit_zero hz2]
  simp only [View.ld_unit_zero (S := S1024x3) hz2, View.ld_unit_zero (S := S8x128) hz2, View.ld_unit_zero (S := S8x4) hz2,
    View.ld_unit_zero (S := S3x128) hz2, View.ld_unit_zero (S := S128x128) hz2, View.ld_unit_zero (S := S128x4) hz2,
    View.ld_unit_zero (S := S128) hz1, View.ld_unit_zero (S := S4) hz1]
  funext y
  obtain ⟨b, q, rfl⟩ : ∃ (b : Fin 8) (q : Fin 4096), y = ix2 b q := ⟨y 0, y 1, eq_ix2 y⟩
  show k0_pay1 (F := Ideal) (k0_pay2 (iblk m c 0 t) (iblk m c 7 t) (iblk m c 8 t) (iblk m c 1 t) (iblk m c 2 t) (iblk m c 9 t) (iblk m c 10 t))
        (k0_pay3 (iblk m c 3 t)) (iblk m c 4 t) (iblk m c 11 t) (iblk m c 12 t) (iblk m c 5 t) (iblk m c 6 t) (ix2 b q)
      = GK m c (((cfg0.win 13).blk t).view.emb (ix2 b q))
  rw [emb13 t b q]
  exact tile_value m c t b q

/-- After the run the result array is the specification's function of the argument arrays. -/
theorem final : (dats m 0 c).arrAt 13 cfg0.N = GK m c :=
  (dats m 0 c).arrAt_eq_of_cover 13 (GK m c) (fun t _ => flushed_eq m c t) cover13

/-- The kernel's run, with the result array named. -/
theorem run (ρ : Dev nD → PrngReg) : θ_run defs (onTc (τ := τ) (main (F := Ideal))) ⟨m, fun _ => 0, ρ⟩ fun r => ∀ c : Dev nD,
      r.2.mem ((c : Thread nD τ).loc main_v27) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.ArrValue

end
-- ==== Proof.RefIdx.lean ====
/-
  Two indices of a small rank are equal when their coordinates are.
-/
import Idealize.ShloMosaic.Lib.ValueIdx

namespace Cert.ReferenceIdeal.RefValue

open Idealize.ShloMosaic Idealize.ShloMosaic.ValueIdx

/-- Rank 1. -/
theorem ext1 {n0 : ℕ} (i j : (⟨1, ![n0]⟩ : Shape).Idx) (h0 : (i 0).val = (j 0).val) : i = j :=
  funext fun a => Fin.ext (by match a with | ⟨0, _⟩ => exact h0)

/-- Rank 2. -/
theorem ext2 {n0 n1 : ℕ} (i j : (⟨2, ![n0, n1]⟩ : Shape).Idx) (h0 : (i 0).val = (j 0).val) (h1 : (i 1).val = (j 1).val) :
    i = j :=
  funext fun a => Fin.ext (by match a with | ⟨0, _⟩ => exact h0 | ⟨1, _⟩ => exact h1)

/-- Rank 3. -/
theorem ext3 {n0 n1 n2 : ℕ} (i j : (⟨3, ![n0, n1, n2]⟩ : Shape).Idx) (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- Rank 4. -/
theorem ext4 {n0 n1 n2 n3 : ℕ} (i j : (⟨4, ![n0, n1, n2, n3]⟩ : Shape).Idx) (h0 : (i 0).val = (j 0).val)
    (h1 : (i 1).val = (j 1).val) (h2 : (i 2).val = (j 2).val) (h3 : (i 3).val = (j 3).val) : i = j :=
  funext fun a => Fin.ext (by
    match a with | ⟨0, _⟩ => exact h0 | ⟨1, _⟩ => exact h1 | ⟨2, _⟩ => exact h2 | ⟨3, _⟩ => exact h3)

end Cert.ReferenceIdeal.RefValue
-- ==== Proof.RefMod.lean ====
/-
  The three modulations of the reference, read at a batch row.

  Each layer's modulation is the latent row times the transposed modulation matrix plus the modulation bias; its
  first half is the layer's scale and its second half the shift. The reference computes the three modulations once
  for each grid; the second computation is the first one word for word.
-/
import proofs.«137301_j13537736917463_2_alg».proof.Proof.Gen.ReferenceIdeal.Read
import proofs.«137301_j13537736917463_2_alg».proof.Proof.Spec
import proofs.«137301_j13537736917463_2_alg».proof.Proof.RefIdx

noncomputable section

namespace Cert.ReferenceIdeal.RefValue

open Cert.ReferenceIdeal Cert.ReferenceIdeal.Read Idealize.ShloMosaic Idealize.ShloMosaic.ValueIdx Cert.ModNet

/-- The modulation of batch row `b` before it is cut in two: entry `j` is `(Σ_k z(b,k) · M(j,k)) + mb(j)`. -/
theorem v6_at (x0 : (⟨S8x128, .f32⟩ : BufTy).Contents (Elt Ideal)) (x5 : (⟨S256x128, .f32⟩ : BufTy).Contents (Elt Ideal)) (x6 : (⟨S256, .f32⟩ : BufTy).Contents (Elt Ideal)) (b : Fin 8) (j : Fin 256) :
    val_main_v6 (F := Ideal) x0 x5 x6 (ix2 b j) = modv x0 x5 x6 b j := by
  have e1 : ∀ k : Fin 128, lidx_main_v3 (ix2 b j) k = ix2 b k := fun k => ext2 _ _ rfl rfl
  have e2 : ∀ k : Fin 128, idx_main_v2 (ridx_main_v3 (ix2 b j) k) = ix2 j k := fun k => ext2 _ _ rfl rfl
  have e3 : idx_main_v4 (idx_main_v5 (ix2 b j)) = ix1 j := ext1 _ _ rfl
  rw [val_main_v6_apply, val_main_v3_apply, val_main_v5_apply, val_main_v4_apply, e3]
  simp only [val_main_v2_apply, e1, e2]
  rfl

/-- Its first half is the scale. -/
theorem v7_at (x0 : (⟨S8x128, .f32⟩ : BufTy).Contents (Elt Ideal)) (x5 : (⟨S256x128, .f32⟩ : BufTy).Contents (Elt Ideal)) (x6 : (⟨S256, .f32⟩ : BufTy).Contents (Elt Ideal)) (b : Fin 8) (o : Fin 128) :
    val_main_v7 (F := Ideal) x0 x5 x6 (ix2 b o) = lo (O := 128) rfl (modv x0 x5 x6 b) o := by
  have e : idx_main_v7 (ix2 b o) = ix2 b (⟨o.val, by have := o.isLt; omega⟩ : Fin 256) := ext2 _ _ rfl rfl
  rw [val_main_v7_apply, e, v6_at]
  rfl

/-- Its second half is the shift. -/
theorem v8_at (x0 : (⟨S8x128, .f32⟩ : BufTy).Contents (Elt Ideal)) (x5 : (⟨S256x128, .f32⟩ : BufTy).Contents (Elt Ideal)) (x6 : (⟨S256, .f32⟩ : BufTy).Contents (Elt Ideal)) (b : Fin 8) (o : Fin 128) :
    val_main_v8 (F := Ideal) x0 x5 x6 (ix2 b o) = hi (O := 128) rfl (modv x0 x5 x6 b) o := by
  have e : idx_main_v8 (ix2 b o) = ix2 b (⟨128 + o.val, by have := o.isLt; omega⟩ : Fin 256) := ext2 _ _ rfl rfl
  rw [val_main_v8_apply, e, v6_at]
  rfl

/-- The modulation of batch row `b` before it is cut in two: entry `j` is `(Σ_k z(b,k) · M(j,k)) + mb(j)`. -/
theorem v26_at (x0 : (⟨S8x128, .f32⟩ : BufTy).Contents (Elt Ideal)) (x9 : (⟨S256x128, .f32⟩ : BufTy).Contents (Elt Ideal)) (x10 : (⟨S256, .f32⟩ : BufTy).Contents (Elt Ideal)) (b : Fin 8) (j : Fin 256) :
    val_main_v26 (F := Ideal) x0 x9 x10 (ix2 b j) = modv x0 x9 x10 b j := by
  have e1 : ∀ k : Fin 128, lidx_main_v23 (ix2 b j) k = ix2 b k := fun k => ext2 _ _ rfl rfl
  have e2 : ∀ k : Fin 128, idx_main_v22 (ridx_main_v23 (ix2 b j) k) = ix2 j k := fun k => ext2 _ _ rfl rfl
  have e3 : idx_main_v24 (idx_main_v25 (ix2 b j)) = ix1 j := ext1 _ _ rfl
  rw [val_main_v26_apply, val_main_v23_apply, val_main_v25_apply, val_main_v24_apply, e3]
  simp only [val_main_v22_apply, e1, e2]
  rfl

/-- Its first half is the scale. -/
theorem v27_at (x0 : (⟨S8x128, .f32⟩ : BufTy).Contents (Elt Ideal)) (x9 : (⟨S256x128, .f32⟩ : BufTy).Contents (Elt Ideal)) (x10 : (⟨S256, .f32⟩ : BufTy).Contents (Elt Ideal)) (b : Fin 8) (o : Fin 128) :
    val_main_v27 (F := Ideal) x0 x9 x10 (ix2 b o) = lo (O := 128) rfl (modv x0 x9 x10 b) o := by
  have e : idx_main_v27 (ix2 b o) = ix2 b (⟨o.val, by have := o.isLt; omega⟩ : Fin 256) := ext2 _ _ rfl rfl
  rw [val_main_v27_apply, e, v26_at]
  rfl

/-- Its second half is the shift. -/
theorem v28_at (x0 : (⟨S8x128, .f32⟩ : BufTy).Contents (Elt Ideal)) (x9 : (⟨S256x128, .f32⟩ : BufTy).Contents (Elt Ideal)) (x10 : (⟨S256, .f32⟩ : BufTy).Contents (Elt Ideal)) (b : Fin 8) (o : Fin 128) :
    val_main_v28 (F := Ideal) x0 x9 x10 (ix2 b o) = hi (O := 128) rfl (modv x0 x9 x10 b) o := by
  have e : idx_main_v28 (ix2 b o) = ix2 b (⟨128 + o.val, by have := o.isLt; omega⟩ : Fin 256) := ext2 _ _ rfl rfl
  rw [val_main_v28_apply, e, v26_at]
  rfl

/-- The modulation of batch row `b` before it is cut in two: entry `j` is `(Σ_k z(b,k) · M(j,k)) + mb(j)`. -/
theorem v46_at (x0 : (⟨S8x128, .f32⟩ : BufTy).Contents (Elt Ideal)) (x13 : (⟨S8x128, .f32⟩ : BufTy).Contents (Elt Ideal)) (x14 : (⟨S8, .f32⟩ : BufTy).Contents (Elt Ideal)) (b : Fin 8) (j : Fin 8) :
    val_main_v46 (F := Ideal) x0 x13 x14 (ix2 b j) = modv x0 x13 x14 b j := by
  have e1 : ∀ k : Fin 128, lidx_main_v43 (ix2 b j) k = ix2 b k := fun k => ext2 _ _ rfl rfl
  have e2 : ∀ k : Fin 128, idx_main_v42 (ridx_main_v43 (ix2 b j) k) = ix2 j k := fun k => ext2 _ _ rfl rfl
  have e3 : idx_main_v44 (idx_main_v45 (ix2 b j)) = ix1 j := ext1 _ _ rfl
  rw [val_main_v46_apply, val_main_v43_apply, val_main_v45_apply, val_main_v44_apply, e3]
  simp only [val_main_v42_apply, e1, e2]
  rfl

/-- Its first half is the scale. -/
theorem v47_at (x0 : (⟨S8x128, .f32⟩ : BufTy).Contents (Elt Ideal)) (x13 : (⟨S8x128, .f32⟩ : BufTy).Contents (Elt Ideal)) (x14 : (⟨S8, .f32⟩ : BufTy).Contents (Elt Ideal)) (b : Fin 8) (o : Fin 4) :
    val_main_v47 (F := Ideal) x0 x13 x14 (ix2 b o) = lo (O := 4) rfl (modv x0 x13 x14 b) o := by
  have e : idx_main_v47 (ix2 b o) = ix2 b (⟨o.val, by have := o.isLt; omega⟩ : Fin 8) := ext2 _ _ rfl rfl
  rw [val_main_v47_apply, e, v46_at]
  rfl

/-- Its second half is the shift. -/
theorem v48_at (x0 : (⟨S8x128, .f32⟩ : BufTy).Contents (Elt Ideal)) (x13 : (⟨S8x128, .f32⟩ : BufTy).Contents (Elt Ideal)) (x14 : (⟨S8, .f32⟩ : BufTy).Contents (Elt Ideal)) (b : Fin 8) (o : Fin 4) :
    val_main_v48 (F := Ideal) x0 x13 x14 (ix2 b o) = hi (O := 4) rfl (modv x0 x13 x14 b) o := by
  have e : idx_main_v48 (ix2 b o) = ix2 b (⟨4 + o.val, by have := o.isLt; omega⟩ : Fin 8) := ext2 _ _ rfl rfl
  rw [val_main_v48_apply, e, v46_at]
  rfl

/-! The second grid's modulations are the first grid's, stage for stage: the same operations on the same arguments. -/

theorem v69_at (x0 : (⟨S8x128, .f32⟩ : BufTy).Contents (Elt Ideal)) (x5 : (⟨S256x128, .f32⟩ : BufTy).Contents (Elt Ideal)) (x6 : (⟨S256, .f32⟩ : BufTy).Contents (Elt Ideal)) (b : Fin 8) (o : Fin 128) :
    val_main_v69 (F := Ideal) x0 x5 x6 (ix2 b o) = lo (O := 128) rfl (modv x0 x5 x6 b) o :=
  v7_at x0 x5 x6 b o

theorem v70_at (x0 : (⟨S8x128, .f32⟩ : BufTy).Contents (Elt Ideal)) (x5 : (⟨S256x128, .f32⟩ : BufTy).Contents (Elt Ideal)) (x6 : (⟨S256, .f32⟩ : BufTy).Contents (Elt Ideal)) (b : Fin 8) (o : Fin 128) :
    val_main_v70 (F := Ideal) x0 x5 x6 (ix2 b o) = hi (O := 128) rfl (modv x0 x5 x6 b) o :=
  v8_at x0 x5 x6 b o

theorem v89_at (x0 : (⟨S8x128, .f32⟩ : BufTy).Contents (Elt Ideal)) (x9 : (⟨S256x128, .f32⟩ : BufTy).Contents (Elt Ideal)) (x10 : (⟨S256, .f32⟩ : BufTy).Contents (Elt Ideal)) (b : Fin 8) (o : Fin 128) :
    val_main_v89 (F := Ideal) x0 x9 x10 (ix2 b o) = lo (O := 128) rfl (modv x0 x9 x10 b) o :=
  v27_at x0 x9 x10 b o

theorem v90_at (x0 : (⟨S8x128, .f32⟩ : BufTy).Contents (Elt Ideal)) (x9 : (⟨S256x128, .f32⟩ : BufTy).Contents (Elt Ideal)) (x10 : (⟨S256, .f32⟩ : BufTy).Contents (Elt Ideal)) (b : Fin 8) (o : Fin 128) :
    val_main_v90 (F := Ideal) x0 x9 x10 (ix2 b o) = hi (O := 128) rfl (modv x0 x9 x10 b) o :=
  v28_at x0 x9 x10 b o

theorem v109_at (x0 : (⟨S8x128, .f32⟩ : BufTy).Contents (Elt Ideal)) (x13 : (⟨S8x128, .f32⟩ : BufTy).Contents (Elt Ideal)) (x14 : (⟨S8, .f32⟩ : BufTy).Contents (Elt Ideal)) (b : Fin 8) (o : Fin 4) :
    val_main_v109 (F := Ideal) x0 x13 x14 (ix2 b o) = lo (O := 4) rfl (modv x0 x13 x14 b) o :=
  v47_at x0 x13 x14 b o

theorem v110_at (x0 : (⟨S8x128, .f32⟩ : BufTy).Contents (Elt Ideal)) (x13 : (⟨S8x128, .f32⟩ : BufTy).Contents (Elt Ideal)) (x14 : (⟨S8, .f32⟩ : BufTy).Contents (Elt Ideal)) (b : Fin 8) (o : Fin 4) :
    val_main_v110 (F := Ideal) x0 x13 x14 (ix2 b o) = hi (O := 4) rfl (modv x0 x13 x14 b) o :=
  v48_at x0 x13 x14 b o

end Cert.ReferenceIdeal.RefValue

end
-- ==== Proof.RefLevel0.lean ====
/-
  The reference on the first grid (32·32·32 points), read at a batch row, a point and an output.

  The grid is reshaped to one row per point and copied to every batch row; each of the three layers is a
  contraction of the incoming row with the weight matrix, plus the bias, times one plus the scale, plus the shift,
  the scale and shift being the two halves of the batch row's modulation; the first two layers are followed by a
  maximum with zero. Every stage is read at explicit coordinates (b, n, o).
-/
import proofs.«137301_j13537736917463_2_alg».proof.Proof.Gen.ReferenceIdeal.Read
import proofs.«137301_j13537736917463_2_alg».proof.Proof.Spec
import proofs.«137301_j13537736917463_2_alg».proof.Proof.RefIdx
import proofs.«137301_j13537736917463_2_alg».proof.Proof.RefMod

noncomputable section

namespace Cert.ReferenceIdeal.RefValue

open Cert.ReferenceIdeal Cert.ReferenceIdeal.Read Idealize.ShloMosaic Idealize.ShloMosaic.ValueIdx Cert.ModNet

/-- The grid's points, one copy for each batch row: entry (b, n, k) is coordinate `k` of row `n` of the grid read as an
    [32768, 3] matrix. Both readings take the entry of the grid whose place in row-major order is `3n + k`. -/
theorem v1_at (x1 : (⟨S32x32x32x3, .f32⟩ : BufTy).Contents (Elt Ideal)) (b : Fin 8) (n : Fin 32768) (k : Fin 3) :
    val_main_v1 (F := Ideal) x1 (ix3 b n k) = (rows (S := S32x32x32x3) (n := 32768) x1 (by decide) n) k := by
  rw [val_main_v1_apply, val_main_v0_apply]
  unfold rows
  symm
  refine shapeCast_apply x1 _ (ix2 n k) _ ?_
  rewrite [Shape.rowMajor_val_four, Shape.rowMajor_val_two]
  show ((((0 * 32768 + n.val) * 3 + k.val) / 3072 * 32 + ((0 * 32768 + n.val) * 3 + k.val) / 96 % 32) * 32
      + ((0 * 32768 + n.val) * 3 + k.val) / 3 % 32) * 3 + ((0 * 32768 + n.val) * 3 + k.val) % 3 = n.val * 3 + k.val
  have := n.isLt; have := k.isLt
  omega

/-- Layer 1 at batch row `b`, point `n`, output `o`: the linear map of the incoming row plus the bias, times one plus the
    scale, plus the shift. -/
theorem v20_at (x0 : (⟨S8x128, .f32⟩ : BufTy).Contents (Elt Ideal)) (x1 : (⟨S32x32x32x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (b : Fin 8) (n : Fin 32768) (o : Fin 128) :
    val_main_v20 (F := Ideal) x0 x1 x3 x4 x5 x6 (ix3 b n o)
      = (layer (wt x3) (vec x4) (lo (O := 128) rfl (modv x0 x5 x6 b)) (hi (O := 128) rfl (modv x0 x5 x6 b))
      (rows (S := S32x32x32x3) (n := 32768) x1 (by decide) n)) o := by
  have e1 : ∀ k : Fin 3, lidx_main_v9 (ix3 b n o) k = ix3 b n k := fun k => ext3 _ _ rfl rfl rfl
  have e2 : ∀ k : Fin 3, ridx_main_v9 (ix3 b n o) k = ix2 o k := fun k => ext2 _ _ rfl rfl
  have e3 : idx_main_v10 (idx_main_v11 (ix3 b n o)) = ix1 o := ext1 _ _ rfl
  have e4 : idx_main_v13 (idx_main_v16 (ix3 b n o)) = ix2 b o := ext2 _ _ rfl rfl
  have e5 : idx_main_v18 (idx_main_v19 (ix3 b n o)) = ix2 b o := ext2 _ _ rfl rfl
  rw [val_main_v20_apply, val_main_v17_apply, val_main_v12_apply, val_main_v9_apply, val_main_v11_apply,
    val_main_v10_apply, e3, val_main_v16_apply, val_main_v15_apply, val_main_v14_apply, val_main_cst_apply,
    val_main_v13_apply, e4, v7_at, val_main_v19_apply, val_main_v18_apply, e5, v8_at]
  simp only [e1, e2, v1_at]
  rfl

/-- The rectifier after layer 1: the maximum with the zero array. -/
theorem v21_at (x0 : (⟨S8x128, .f32⟩ : BufTy).Contents (Elt Ideal)) (x1 : (⟨S32x32x32x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (b : Fin 8) (n : Fin 32768) (o : Fin 128) :
    val_main_v21 (F := Ideal) x0 x1 x3 x4 x5 x6 (ix3 b n o)
      = relu (layer (wt x3) (vec x4) (lo (O := 128) rfl (modv x0 x5 x6 b)) (hi (O := 128) rfl (modv x0 x5 x6 b))
      (rows (S := S32x32x32x3) (n := 32768) x1 (by decide) n)) o := by
  rw [val_main_v21_apply, val_main_call0_v0_apply, val_main_call0_cst_apply, v20_at]
  show max _ (Ideal.ofBits .f32 0x00000000#32) = _
  rw [Ideal.ofBits_zero_f32]
  rfl

/-- Layer 2 at batch row `b`, point `n`, output `o`: the linear map of the incoming row plus the bias, times one plus the
    scale, plus the shift. -/
theorem v40_at (x0 : (⟨S8x128, .f32⟩ : BufTy).Contents (Elt Ideal)) (x1 : (⟨S32x32x32x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (b : Fin 8) (n : Fin 32768) (o : Fin 128) :
    val_main_v40 (F := Ideal) x0 x1 x3 x4 x5 x6 x7 x8 x9 x10 (ix3 b n o)
      = (layer (wt x7) (vec x8) (lo (O := 128) rfl (modv x0 x9 x10 b)) (hi (O := 128) rfl (modv x0 x9 x10 b))
      (relu (layer (wt x3) (vec x4) (lo (O := 128) rfl (modv x0 x5 x6 b)) (hi (O := 128) rfl (modv x0 x5 x6 b))
      (rows (S := S32x32x32x3) (n := 32768) x1 (by decide) n)))) o := by
  have e1 : ∀ k : Fin 128, lidx_main_v29 (ix3 b n o) k = ix3 b n k := fun k => ext3 _ _ rfl rfl rfl
  have e2 : ∀ k : Fin 128, ridx_main_v29 (ix3 b n o) k = ix2 o k := fun k => ext2 _ _ rfl rfl
  have e3 : idx_main_v30 (idx_main_v31 (ix3 b n o)) = ix1 o := ext1 _ _ rfl
  have e4 : idx_main_v33 (idx_main_v36 (ix3 b n o)) = ix2 b o := ext2 _ _ rfl rfl
  have e5 : idx_main_v38 (idx_main_v39 (ix3 b n o)) = ix2 b o := ext2 _ _ rfl rfl
  rw [val_main_v40_apply, val_main_v37_apply, val_main_v32_apply, val_main_v29_apply, val_main_v31_apply,
    val_main_v30_apply, e3, val_main_v36_apply, val_main_v35_apply, val_main_v34_apply, val_main_cst_0_apply,
    val_main_v33_apply, e4, v27_at, val_main_v39_apply, val_main_v38_apply, e5, v28_at]
  simp only [e1, e2, v21_at]
  rfl

/-- The rectifier after layer 2: the maximum with the zero array. -/
theorem v41_at (x0 : (⟨S8x128, .f32⟩ : BufTy).Contents (Elt Ideal)) (x1 : (⟨S32x32x32x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (b : Fin 8) (n : Fin 32768) (o : Fin 128) :
    val_main_v41 (F := Ideal) x0 x1 x3 x4 x5 x6 x7 x8 x9 x10 (ix3 b n o)
      = relu (layer (wt x7) (vec x8) (lo (O := 128) rfl (modv x0 x9 x10 b)) (hi (O := 128) rfl (modv x0 x9 x10 b))
      (relu (layer (wt x3) (vec x4) (lo (O := 128) rfl (modv x0 x5 x6 b)) (hi (O := 128) rfl (modv x0 x5 x6 b))
      (rows (S := S32x32x32x3) (n := 32768) x1 (by decide) n)))) o := by
  rw [val_main_v41_apply, val_main_call1_v0_apply, val_main_call1_cst_apply, v40_at]
  show max _ (Ideal.ofBits .f32 0x00000000#32) = _
  rw [Ideal.ofBits_zero_f32]
  rfl

/-- Layer 3 at batch row `b`, point `n`, output `o`: the linear map of the incoming row plus the bias, times one plus the
    scale, plus the shift — with the two layers before it, the whole network on the point. -/
theorem v60_at (x0 : (⟨S8x128, .f32⟩ : BufTy).Contents (Elt Ideal)) (x1 : (⟨S32x32x32x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S4x128, .f32⟩ : BufTy).Contents (Elt Ideal)) (x12 : (⟨S4, .f32⟩ : BufTy).Contents (Elt Ideal)) (x13 : (⟨S8x128, .f32⟩ : BufTy).Contents (Elt Ideal)) (x14 : (⟨S8, .f32⟩ : BufTy).Contents (Elt Ideal)) (b : Fin 8) (n : Fin 32768) (o : Fin 4) :
    val_main_v60 (F := Ideal) x0 x1 x3 x4 x5 x6 x7 x8 x9 x10 x11 x12 x13 x14 (ix3 b n o)
      = net x0 x3 x4 x5 x6 x7 x8 x9 x10 x11 x12 x13 x14 b (rows (S := S32x32x32x3) (n := 32768) x1 (by decide) n) o := by
  have e1 : ∀ k : Fin 128, lidx_main_v49 (ix3 b n o) k = ix3 b n k := fun k => ext3 _ _ rfl rfl rfl
  have e2 : ∀ k : Fin 128, ridx_main_v49 (ix3 b n o) k = ix2 o k := fun k => ext2 _ _ rfl rfl
  have e3 : idx_main_v50 (idx_main_v51 (ix3 b n o)) = ix1 o := ext1 _ _ rfl
  have e4 : idx_main_v53 (idx_main_v56 (ix3 b n o)) = ix2 b o := ext2 _ _ rfl rfl
  have e5 : idx_main_v58 (idx_main_v59 (ix3 b n o)) = ix2 b o := ext2 _ _ rfl rfl
  rw [val_main_v60_apply, val_main_v57_apply, val_main_v52_apply, val_main_v49_apply, val_main_v51_apply,
    val_main_v50_apply, e3, val_main_v56_apply, val_main_v55_apply, val_main_v54_apply, val_main_cst_1_apply,
    val_main_v53_apply, e4, v47_at, val_main_v59_apply, val_main_v58_apply, e5, v48_at]
  simp only [e1, e2, v41_at]
  rfl

/-- The result folded to one row per batch row: column `c` holds output `c % 4` of point `c / 4`. -/
theorem v61_at (x0 : (⟨S8x128, .f32⟩ : BufTy).Contents (Elt Ideal)) (x1 : (⟨S32x32x32x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S4x128, .f32⟩ : BufTy).Contents (Elt Ideal)) (x12 : (⟨S4, .f32⟩ : BufTy).Contents (Elt Ideal)) (x13 : (⟨S8x128, .f32⟩ : BufTy).Contents (Elt Ideal)) (x14 : (⟨S8, .f32⟩ : BufTy).Contents (Elt Ideal)) (b : Fin 8) (c : Fin 131072) :
    val_main_v61 (F := Ideal) x0 x1 x3 x4 x5 x6 x7 x8 x9 x10 x11 x12 x13 x14 (ix2 b c)
      = net x0 x3 x4 x5 x6 x7 x8 x9 x10 x11 x12 x13 x14 b
          (rows (S := S32x32x32x3) (n := 32768) x1 (by decide) ⟨c.val / 4, by have := c.isLt; omega⟩) ⟨c.val % 4, Nat.mod_lt _ (by decide)⟩ := by
  have e : idx_main_v61 (ix2 b c)
      = ix3 b (⟨c.val / 4, by have := c.isLt; omega⟩ : Fin 32768) (⟨c.val % 4, Nat.mod_lt _ (by decide)⟩ : Fin 4) :=
    ext3 _ _
      (by show (b.val * 131072 + c.val) / 131072 = b.val; have := c.isLt; omega)
      (by show (b.val * 131072 + c.val) / 4 % 32768 = c.val / 4; have := c.isLt; omega)
      (by show (b.val * 131072 + c.val) % 4 = c.val % 4; omega)
  rw [val_main_v61_apply, e, v60_at]

end Cert.ReferenceIdeal.RefValue

end
-- ==== Proof.RefLevel1.lean ====
/-
  The reference on the second grid (48·48·48 points), read at a batch row, a point and an output.

  The same three layers as on the first grid, with the same weights and the same modulations, applied to the rows
  of the second grid. Every stage is read at explicit coordinates (b, n, o).
-/
import proofs.«137301_j13537736917463_2_alg».proof.Proof.Gen.ReferenceIdeal.Read
import proofs.«137301_j13537736917463_2_alg».proof.Proof.Spec
import proofs.«137301_j13537736917463_2_alg».proof.Proof.RefIdx
import proofs.«137301_j13537736917463_2_alg».proof.Proof.RefMod

noncomputable section

namespace Cert.ReferenceIdeal.RefValue

open Cert.ReferenceIdeal Cert.ReferenceIdeal.Read Idealize.ShloMosaic Idealize.ShloMosaic.ValueIdx Cert.ModNet

/-- The grid's points, one copy for each batch row: entry (b, n, k) is coordinate `k` of row `n` of the grid read as an
    [110592, 3] matrix. Both readings take the entry of the grid whose place in row-major order is `3n + k`. -/
theorem v63_at (x2 : (⟨S48x48x48x3, .f32⟩ : BufTy).Contents (Elt Ideal)) (b : Fin 8) (n : Fin 110592) (k : Fin 3) :
    val_main_v63 (F := Ideal) x2 (ix3 b n k) = (rows (S := S48x48x48x3) (n := 110592) x2 (by decide) n) k := by
  rw [val_main_v63_apply, val_main_v62_apply]
  unfold rows
  symm
  refine shapeCast_apply x2 _ (ix2 n k) _ ?_
  rewrite [Shape.rowMajor_val_four, Shape.rowMajor_val_two]
  show ((((0 * 110592 + n.val) * 3 + k.val) / 6912 * 48 + ((0 * 110592 + n.val) * 3 + k.val) / 144 % 48) * 48
      + ((0 * 110592 + n.val) * 3 + k.val) / 3 % 48) * 3 + ((0 * 110592 + n.val) * 3 + k.val) % 3 = n.val * 3 + k.val
  have := n.isLt; have := k.isLt
  omega

/-- Layer 1 at batch row `b`, point `n`, output `o`: the linear map of the incoming row plus the bias, times one plus the
    scale, plus the shift. -/
theorem v82_at (x0 : (⟨S8x128, .f32⟩ : BufTy).Contents (Elt Ideal)) (x2 : (⟨S48x48x48x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (b : Fin 8) (n : Fin 110592) (o : Fin 128) :
    val_main_v82 (F := Ideal) x0 x2 x3 x4 x5 x6 (ix3 b n o)
      = (layer (wt x3) (vec x4) (lo (O := 128) rfl (modv x0 x5 x6 b)) (hi (O := 128) rfl (modv x0 x5 x6 b))
      (rows (S := S48x48x48x3) (n := 110592) x2 (by decide) n)) o := by
  have e1 : ∀ k : Fin 3, lidx_main_v71 (ix3 b n o) k = ix3 b n k := fun k => ext3 _ _ rfl rfl rfl
  have e2 : ∀ k : Fin 3, ridx_main_v71 (ix3 b n o) k = ix2 o k := fun k => ext2 _ _ rfl rfl
  have e3 : idx_main_v72 (idx_main_v73 (ix3 b n o)) = ix1 o := ext1 _ _ rfl
  have e4 : idx_main_v75 (idx_main_v78 (ix3 b n o)) = ix2 b o := ext2 _ _ rfl rfl
  have e5 : idx_main_v80 (idx_main_v81 (ix3 b n o)) = ix2 b o := ext2 _ _ rfl rfl
  rw [val_main_v82_apply, val_main_v79_apply, val_main_v74_apply, val_main_v71_apply, val_main_v73_apply,
    val_main_v72_apply, e3, val_main_v78_apply, val_main_v77_apply, val_main_v76_apply, val_main_cst_2_apply,
    val_main_v75_apply, e4, v69_at, val_main_v81_apply, val_main_v80_apply, e5, v70_at]
  simp only [e1, e2, v63_at]
  rfl

/-- The rectifier after layer 1: the maximum with the zero array. -/
theorem v83_at (x0 : (⟨S8x128, .f32⟩ : BufTy).Contents (Elt Ideal)) (x2 : (⟨S48x48x48x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (b : Fin 8) (n : Fin 110592) (o : Fin 128) :
    val_main_v83 (F := Ideal) x0 x2 x3 x4 x5 x6 (ix3 b n o)
      = relu (layer (wt x3) (vec x4) (lo (O := 128) rfl (modv x0 x5 x6 b)) (hi (O := 128) rfl (modv x0 x5 x6 b))
      (rows (S := S48x48x48x3) (n := 110592) x2 (by decide) n)) o := by
  rw [val_main_v83_apply, val_main_call2_v0_apply, val_main_call2_cst_apply, v82_at]
  show max _ (Ideal.ofBits .f32 0x00000000#32) = _
  rw [Ideal.ofBits_zero_f32]
  rfl

/-- Layer 2 at batch row `b`, point `n`, output `o`: the linear map of the incoming row plus the bias, times one plus the
    scale, plus the shift. -/
theorem v102_at (x0 : (⟨S8x128, .f32⟩ : BufTy).Contents (Elt Ideal)) (x2 : (⟨S48x48x48x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (b : Fin 8) (n : Fin 110592) (o : Fin 128) :
    val_main_v102 (F := Ideal) x0 x2 x3 x4 x5 x6 x7 x8 x9 x10 (ix3 b n o)
      = (layer (wt x7) (vec x8) (lo (O := 128) rfl (modv x0 x9 x10 b)) (hi (O := 128) rfl (modv x0 x9 x10 b))
      (relu (layer (wt x3) (vec x4) (lo (O := 128) rfl (modv x0 x5 x6 b)) (hi (O := 128) rfl (modv x0 x5 x6 b))
      (rows (S := S48x48x48x3) (n := 110592) x2 (by decide) n)))) o := by
  have e1 : ∀ k : Fin 128, lidx_main_v91 (ix3 b n o) k = ix3 b n k := fun k => ext3 _ _ rfl rfl rfl
  have e2 : ∀ k : Fin 128, ridx_main_v91 (ix3 b n o) k = ix2 o k := fun k => ext2 _ _ rfl rfl
  have e3 : idx_main_v92 (idx_main_v93 (ix3 b n o)) = ix1 o := ext1 _ _ rfl
  have e4 : idx_main_v95 (idx_main_v98 (ix3 b n o)) = ix2 b o := ext2 _ _ rfl rfl
  have e5 : idx_main_v100 (idx_main_v101 (ix3 b n o)) = ix2 b o := ext2 _ _ rfl rfl
  rw [val_main_v102_apply, val_main_v99_apply, val_main_v94_apply, val_main_v91_apply, val_main_v93_apply,
    val_main_v92_apply, e3, val_main_v98_apply, val_main_v97_apply, val_main_v96_apply, val_main_cst_3_apply,
    val_main_v95_apply, e4, v89_at, val_main_v101_apply, val_main_v100_apply, e5, v90_at]
  simp only [e1, e2, v83_at]
  rfl

/-- The rectifier after layer 2: the maximum with the zero array. -/
theorem v103_at (x0 : (⟨S8x128, .f32⟩ : BufTy).Contents (Elt Ideal)) (x2 : (⟨S48x48x48x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (b : Fin 8) (n : Fin 110592) (o : Fin 128) :
    val_main_v103 (F := Ideal) x0 x2 x3 x4 x5 x6 x7 x8 x9 x10 (ix3 b n o)
      = relu (layer (wt x7) (vec x8) (lo (O := 128) rfl (modv x0 x9 x10 b)) (hi (O := 128) rfl (modv x0 x9 x10 b))
      (relu (layer (wt x3) (vec x4) (lo (O := 128) rfl (modv x0 x5 x6 b)) (hi (O := 128) rfl (modv x0 x5 x6 b))
      (rows (S := S48x48x48x3) (n := 110592) x2 (by decide) n)))) o := by
  rw [val_main_v103_apply, val_main_call3_v0_apply, val_main_call3_cst_apply, v102_at]
  show max _ (Ideal.ofBits .f32 0x00000000#32) = _
  rw [Ideal.ofBits_zero_f32]
  rfl

/-- Layer 3 at batch row `b`, point `n`, output `o`: the linear map of the incoming row plus the bias, times one plus the
    scale, plus the shift — with the two layers before it, the whole network on the point. -/
theorem v122_at (x0 : (⟨S8x128, .f32⟩ : BufTy).Contents (Elt Ideal)) (x2 : (⟨S48x48x48x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S4x128, .f32⟩ : BufTy).Contents (Elt Ideal)) (x12 : (⟨S4, .f32⟩ : BufTy).Contents (Elt Ideal)) (x13 : (⟨S8x128, .f32⟩ : BufTy).Contents (Elt Ideal)) (x14 : (⟨S8, .f32⟩ : BufTy).Contents (Elt Ideal)) (b : Fin 8) (n : Fin 110592) (o : Fin 4) :
    val_main_v122 (F := Ideal) x0 x2 x3 x4 x5 x6 x7 x8 x9 x10 x11 x12 x13 x14 (ix3 b n o)
      = net x0 x3 x4 x5 x6 x7 x8 x9 x10 x11 x12 x13 x14 b (rows (S := S48x48x48x3) (n := 110592) x2 (by decide) n) o := by
  have e1 : ∀ k : Fin 128, lidx_main_v111 (ix3 b n o) k = ix3 b n k := fun k => ext3 _ _ rfl rfl rfl
  have e2 : ∀ k : Fin 128, ridx_main_v111 (ix3 b n o) k = ix2 o k := fun k => ext2 _ _ rfl rfl
  have e3 : idx_main_v112 (idx_main_v113 (ix3 b n o)) = ix1 o := ext1 _ _ rfl
  have e4 : idx_main_v115 (idx_main_v118 (ix3 b n o)) = ix2 b o := ext2 _ _ rfl rfl
  have e5 : idx_main_v120 (idx_main_v121 (ix3 b n o)) = ix2 b o := ext2 _ _ rfl rfl
  rw [val_main_v122_apply, val_main_v119_apply, val_main_v114_apply, val_main_v111_apply, val_main_v113_apply,
    val_main_v112_apply, e3, val_main_v118_apply, val_main_v117_apply, val_main_v116_apply, val_main_cst_4_apply,
    val_main_v115_apply, e4, v109_at, val_main_v121_apply, val_main_v120_apply, e5, v110_at]
  simp only [e1, e2, v103_at]
  rfl

/-- The result folded to one row per batch row: column `c` holds output `c % 4` of point `c / 4`. -/
theorem v123_at (x0 : (⟨S8x128, .f32⟩ : BufTy).Contents (Elt Ideal)) (x2 : (⟨S48x48x48x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S4x128, .f32⟩ : BufTy).Contents (Elt Ideal)) (x12 : (⟨S4, .f32⟩ : BufTy).Contents (Elt Ideal)) (x13 : (⟨S8x128, .f32⟩ : BufTy).Contents (Elt Ideal)) (x14 : (⟨S8, .f32⟩ : BufTy).Contents (Elt Ideal)) (b : Fin 8) (c : Fin 442368) :
    val_main_v123 (F := Ideal) x0 x2 x3 x4 x5 x6 x7 x8 x9 x10 x11 x12 x13 x14 (ix2 b c)
      = net x0 x3 x4 x5 x6 x7 x8 x9 x10 x11 x12 x13 x14 b
          (rows (S := S48x48x48x3) (n := 110592) x2 (by decide) ⟨c.val / 4, by have := c.isLt; omega⟩) ⟨c.val % 4, Nat.mod_lt _ (by decide)⟩ := by
  have e : idx_main_v123 (ix2 b c)
      = ix3 b (⟨c.val / 4, by have := c.isLt; omega⟩ : Fin 110592) (⟨c.val % 4, Nat.mod_lt _ (by decide)⟩ : Fin 4) :=
    ext3 _ _
      (by show (b.val * 442368 + c.val) / 442368 = b.val; have := c.isLt; omega)
      (by show (b.val * 442368 + c.val) / 4 % 110592 = c.val / 4; have := c.isLt; omega)
      (by show (b.val * 442368 + c.val) % 4 = c.val % 4; omega)
  rw [val_main_v123_apply, e, v122_at]

end Cert.ReferenceIdeal.RefValue

end
-- ==== Proof.RefValue.lean ====
/-
  The reference's result is the network read point by point.

  The result sets the first grid's folded outputs (131072 columns) beside the second grid's (442368 columns). A
  column `c` below 131072 is column `c` of the first part, which holds output `c % 4` of point `c / 4` of the first
  grid; any other column is column `c − 131072` of the second part, output `c % 4` of point `c / 4 − 32768` of the
  second grid, because 131072 = 4 · 32768.
-/
import proofs.«137301_j13537736917463_2_alg».proof.Proof.Gen.ReferenceIdeal.Read
import proofs.«137301_j13537736917463_2_alg».proof.Proof.Spec
import proofs.«137301_j13537736917463_2_alg».proof.Proof.RefIdx
import proofs.«137301_j13537736917463_2_alg».proof.Proof.RefLevel0
import proofs.«137301_j13537736917463_2_alg».proof.Proof.RefLevel1

noncomputable section

namespace Cert.ReferenceIdeal.RefValue

open Cert.ReferenceIdeal Cert.ReferenceIdeal.Read Idealize.ShloMosaic Idealize.ShloMosaic.ValueIdx Cert.ModNet

/-- A column of the first part. -/
theorem v124_left (x0 : (⟨S8x128, .f32⟩ : BufTy).Contents (Elt Ideal)) (x1 : (⟨S32x32x32x3, .f32⟩ : BufTy).Contents (Elt Ideal)) (x2 : (⟨S48x48x48x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S4x128, .f32⟩ : BufTy).Contents (Elt Ideal)) (x12 : (⟨S4, .f32⟩ : BufTy).Contents (Elt Ideal)) (x13 : (⟨S8x128, .f32⟩ : BufTy).Contents (Elt Ideal)) (x14 : (⟨S8, .f32⟩ : BufTy).Contents (Elt Ideal)) (b : Fin 8) (c : Fin 573440) (hc : c.val < 131072) :
    val_main_v124 (F := Ideal) x0 x1 x2 x3 x4 x5 x6 x7 x8 x9 x10 x11 x12 x13 x14 (ix2 b c)
      = val_main_v61 (F := Ideal) x0 x1 x3 x4 x5 x6 x7 x8 x9 x10 x11 x12 x13 x14 (ix2 b (⟨c.val, hc⟩ : Fin 131072)) := by
  unfold val_main_v124
  exact concatenate_pair_apply_left (t := S8x573440) (s₁ := S8x131072) (s₂ := S8x442368) 1 _ _ _ (ix2 b c) rfl
    (ix2 b (⟨c.val, hc⟩ : Fin 131072)) (fun a => by
      match a with
      | ⟨0, _⟩ => rfl
      | ⟨1, _⟩ => rfl)

/-- A column of the second part. -/
theorem v124_right (x0 : (⟨S8x128, .f32⟩ : BufTy).Contents (Elt Ideal)) (x1 : (⟨S32x32x32x3, .f32⟩ : BufTy).Contents (Elt Ideal)) (x2 : (⟨S48x48x48x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S4x128, .f32⟩ : BufTy).Contents (Elt Ideal)) (x12 : (⟨S4, .f32⟩ : BufTy).Contents (Elt Ideal)) (x13 : (⟨S8x128, .f32⟩ : BufTy).Contents (Elt Ideal)) (x14 : (⟨S8, .f32⟩ : BufTy).Contents (Elt Ideal)) (b : Fin 8) (c : Fin 573440) (hc : ¬ c.val < 131072) :
    val_main_v124 (F := Ideal) x0 x1 x2 x3 x4 x5 x6 x7 x8 x9 x10 x11 x12 x13 x14 (ix2 b c)
      = val_main_v123 (F := Ideal) x0 x2 x3 x4 x5 x6 x7 x8 x9 x10 x11 x12 x13 x14 (ix2 b (⟨c.val - 131072, by have := c.isLt; omega⟩ : Fin 442368)) := by
  unfold val_main_v124
  exact concatenate_pair_apply_right (t := S8x573440) (s₁ := S8x131072) (s₂ := S8x442368) 1 _ _ _ (ix2 b c) rfl rfl
    (ix2 b (⟨c.val - 131072, by have := c.isLt; omega⟩ : Fin 442368)) (fun a ha => by
      match a with
      | ⟨0, _⟩ => rfl
      | ⟨1, _⟩ => exact absurd rfl ha) (by show c.val - 131072 + 131072 = c.val; omega)

/-- A point below 32768 is a row of the first grid. -/
theorem point_first (x1 : (⟨S32x32x32x3, .f32⟩ : BufTy).Contents (Elt Ideal)) (x2 : (⟨S48x48x48x3, .f32⟩ : BufTy).Contents (Elt Ideal)) (N : Fin 143360) (h : N.val < 32768) :
    point x1 x2 N = rows (S := S32x32x32x3) (n := 32768) x1 (by decide) ⟨N.val, h⟩ := by
  unfold point
  exact dif_pos h

/-- Any other point is a row of the second grid. -/
theorem point_second (x1 : (⟨S32x32x32x3, .f32⟩ : BufTy).Contents (Elt Ideal)) (x2 : (⟨S48x48x48x3, .f32⟩ : BufTy).Contents (Elt Ideal)) (N : Fin 143360) (h : ¬ N.val < 32768) :
    point x1 x2 N = rows (S := S48x48x48x3) (n := 110592) x2 (by decide) ⟨N.val - 32768, by have := N.isLt; omega⟩ := by
  unfold point
  exact dif_neg h

/-- The reference's result is `G`. -/
theorem ref_eq (x0 : (⟨S8x128, .f32⟩ : BufTy).Contents (Elt Ideal)) (x1 : (⟨S32x32x32x3, .f32⟩ : BufTy).Contents (Elt Ideal)) (x2 : (⟨S48x48x48x3, .f32⟩ : BufTy).Contents (Elt Ideal)) (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal)) (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal)) (x11 : (⟨S4x128, .f32⟩ : BufTy).Contents (Elt Ideal)) (x12 : (⟨S4, .f32⟩ : BufTy).Contents (Elt Ideal)) (x13 : (⟨S8x128, .f32⟩ : BufTy).Contents (Elt Ideal)) (x14 : (⟨S8, .f32⟩ : BufTy).Contents (Elt Ideal)) :
    Cert.ReferenceIdeal.Read.val_main_v124 (F := Ideal) x0 x1 x2 x3 x4 x5 x6 x7 x8 x9 x10 x11 x12 x13 x14
      = Cert.ModNet.G x0 x1 x2 x3 x4 x5 x6 x7 x8 x9 x10 x11 x12 x13 x14 := by
  funext i
  obtain ⟨b, c, rfl⟩ : ∃ (b : Fin 8) (c : Fin 573440), i = ix2 b c := ⟨i 0, i 1, eq_ix2 i⟩
  show _ = Gat x0 x1 x2 x3 x4 x5 x6 x7 x8 x9 x10 x11 x12 x13 x14 b c
  unfold Gat
  have hlt := c.isLt
  by_cases hc : c.val < 131072
  · rw [v124_left x0 x1 x2 x3 x4 x5 x6 x7 x8 x9 x10 x11 x12 x13 x14 b c hc, v61_at,
      point_first x1 x2 ⟨c.val / 4, by omega⟩ (show c.val / 4 < 32768 by omega)]
  · rw [v124_right x0 x1 x2 x3 x4 x5 x6 x7 x8 x9 x10 x11 x12 x13 x14 b c hc, v123_at,
      point_second x1 x2 ⟨c.val / 4, by omega⟩ (show ¬ c.val / 4 < 32768 by omega)]
    exact congrArg₂ (net x0 x3 x4 x5 x6 x7 x8 x9 x10 x11 x12 x13 x14 b)
      (congrArg (rows (S := S48x48x48x3) (n := 110592) x2 (by decide))
        (Fin.ext (show (c.val - 131072) / 4 = c.val / 4 - 32768 by omega)))
      (Fin.ext (show (c.val - 131072) % 4 = c.val % 4 by omega))

end Cert.ReferenceIdeal.RefValue

end
-- ==== Proof.lean ====
/-
  The certificate of a modulated three-layer network evaluated on the points of two grids.

  For each of 8 batch rows the latent vector gives every layer a scale and a shift (a modulation: the latent row times
  a transposed matrix, plus a bias, cut in two). A layer maps a row h to ((h · Wᵀ) + bias) · (1 + scale) + shift; the
  first two layers are followed by max(·, 0). The kernel lays the points of both grids as the rows of one matrix and
  handles 1024 points per grid step, computing the first product once per point, folding batch rows and points into
  one matrix axis for the other two products, and storing four outputs per point side by side; the reference applies
  the same three layers to each grid as a rank-3 array and joins the two flattened results. At the ideal values both
  results are the same sums, products and maxima of the same entries of the arguments, so no property of the inputs
  is used: the result array is `Cert.ModNet.G` of the argument arrays on both sides (Proof/Spec.lean).
  The kernel side: Proof/KernelRow.lean (what the body stores on a tile), Proof/KernelHost.lean and
  Proof/KernelPoints.lean (what the host prepares), Proof/KernelBlocks.lean (which entries each block reads and
  covers), Proof/KernelValue.lean (the array after the run). The reference side: Proof/RefMod.lean, Proof/RefLevel0.lean,
  Proof/RefLevel1.lean, Proof/RefValue.lean. The ideal pass rewrote no operation, so `preserves` is trivial.
-/
import proofs.«137301_j13537736917463_2_alg».proof.Defs
import proofs.«137301_j13537736917463_2_alg».proof.Proof.Gen.Kernel
import proofs.«137301_j13537736917463_2_alg».proof.Proof.Gen.Kernel.Skeleton
import proofs.«137301_j13537736917463_2_alg».proof.Proof.Gen.Kernel.Launch
import proofs.«137301_j13537736917463_2_alg».proof.Proof.Gen.Kernel.Points
import proofs.«137301_j13537736917463_2_alg».proof.Proof.Gen.Kernel.Frame
import proofs.«137301_j13537736917463_2_alg».proof.Proof.Gen.KernelIdeal
import proofs.«137301_j13537736917463_2_alg».proof.Proof.Gen.KernelIdeal.Skeleton
import proofs.«137301_j13537736917463_2_alg».proof.Proof.Gen.KernelIdeal.Launch
import proofs.«137301_j13537736917463_2_alg».proof.Proof.Gen.KernelIdeal.Points
import proofs.«137301_j13537736917463_2_alg».proof.Proof.Gen.KernelIdeal.Frame
import proofs.«137301_j13537736917463_2_alg».proof.Proof.Gen.KernelIdeal.Value
import proofs.«137301_j13537736917463_2_alg».proof.Proof.Gen.ReferenceIdeal
import proofs.«137301_j13537736917463_2_alg».proof.Proof.Gen.ReferenceIdeal.Run
import proofs.«137301_j13537736917463_2_alg».proof.Proof.Gen.ReferenceIdeal.Read
import proofs.«137301_j13537736917463_2_alg».proof.Proof.Gen.Pre_finite_inputs
import proofs.«137301_j13537736917463_2_alg».proof.Proof.KernelValue
import proofs.«137301_j13537736917463_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the specification's function of the (agreeing) argument arrays. -/
theorem algebraic : Cert.algebraic_KernelIdeal_ReferenceIdeal := by
  intro m ρ m' ρ' _ hagree
  refine ⟨fun c => Cert.KernelIdeal.ArrValue.GK m c, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v124_eq, Cert.ReferenceIdeal.RefValue.ref_eq,
    h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
